-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x768 : Shape := ⟨2, ![131072, 768]⟩
abbrev S2x2097152 : Shape := ⟨2, ![2, 2097152]⟩
abbrev S768x64 : Shape := ⟨2, ![768, 64]⟩
abbrev S64 : Shape := ⟨1, ![64]⟩
abbrev S2x2048 : Shape := ⟨2, ![2, 2048]⟩
abbrev S2 : Shape := ⟨1, ![2]⟩
abbrev S_ : Shape := ⟨0, ![]⟩

class Facts : Prop where
  bcast_S_S131072x768 : S_.BroadcastsInDim S131072x768 (![] : Fin 0 → Fin S131072x768.rank)
  reducesTo_S131072x768_S_d0_1 : S131072x768.ReducesTo [0, 1] S_
  h_S_ : 0 < S_.numel
  bcast_S_S768x64 : S_.BroadcastsInDim S768x64 (![] : Fin 0 → Fin S768x64.rank)
  reducesTo_S768x64_S_d0_1 : S768x64.ReducesTo [0, 1] S_
  bcast_S_S64 : S_.BroadcastsInDim S64 (![] : Fin 0 → Fin S64.rank)
  reducesTo_S64_S_d0 : S64.ReducesTo [0] S_
  bcast_S_S2x2048 : S_.BroadcastsInDim S2x2048 (![] : Fin 0 → Fin S2x2048.rank)
  reducesTo_S2x2048_S_d0_1 : S2x2048.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S2x2048 1) : IVec S_ 1 :=
  let main_c_5 : IVec S_ 1 := constantI S_ 1 1#1
  let main_v17 : IVec S_ 1 := (fun x v => Host.reduce IntOp.andi x v reducesTo_S2x2048_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S131072x768 .f32) (main_arg1 : IVec S2x2097152 32) (main_arg2 : FVec F S768x64 .f32) (main_arg3 : FVec F S64 .f32) (main_arg4 : FVec F S2x2048 .f32) (main_arg5 : FVec F S2 .f32) : IVec S_ 1 :=
  let main_v0 : FVec F S131072x768 .f32 := Host.absf main_arg0
  let main_cst : FVec F S_ .f32 := constant S_ .f32 0x7F800000#32
  let main_v1 : FVec F S131072x768 .f32 := broadcastInDim S131072x768 ![] bcast_S_S131072x768 main_cst
  let main_v2 : IVec S131072x768 1 := cmpf .olt main_v0 main_v1
  let main_c : IVec S_ 1 := constantI S_ 1 1#1
  let main_v3 : IVec S_ 1 := (fun x v => Host.reduce IntOp.andi x v reducesTo_S131072x768_S_d0_1 h_S_) main_v2 main_c
  let main_v4 : FVec F S768x64 .f32 := Host.absf main_arg2
  let main_cst_0 : FVec F S_ .f32 := constant S_ .f32 0x7F800000#32
  let main_v5 : FVec F S768x64 .f32 := broadcastInDim S768x64 ![] bcast_S_S768x64 main_cst_0
  let main_v6 : IVec S768x64 1 := cmpf .olt main_v4 main_v5
  let main_c_1 : IVec S_ 1 := constantI S_ 1 1#1
  let main_v7 : IVec S_ 1 := (fun x v => Host.reduce IntOp.andi x v reducesTo_S768x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S2x2048 .f32 := Host.absf main_arg4
  let main_cst_4 : FVec F S_ .f32 := constant S_ .f32 0x7F800000#32
  let main_v15 : FVec F S2x2048 .f32 := broadcastInDim S2x2048 ![] bcast_S_S2x2048 main_cst_4
  let main_v16 : IVec S2x2048 1 := cmpf .olt main_v14 main_v15
  fn_part1 (F := F) main_arg5 main_v13 main_v16
-- ==== Kernel.lean ====
abbrev S131072x768 : Shape := ⟨2, ![131072, 768]⟩
abbrev S2x2097152 : Shape := ⟨2, ![2, 2097152]⟩
abbrev S768x64 : Shape := ⟨2, ![768, 64]⟩
abbrev S64 : Shape := ⟨1, ![64]⟩
abbrev S2x2048 : Shape := ⟨2, ![2, 2048]⟩
abbrev S2 : Shape := ⟨1, ![2]⟩
abbrev S131072 : Shape := ⟨1, ![131072]⟩
abbrev S1x2097152 : Shape := ⟨2, ![1, 2097152]⟩
abbrev S2097152 : Shape := ⟨1, ![2097152]⟩
abbrev S2228224 : Shape := ⟨1, ![2228224]⟩
abbrev S_ : Shape := ⟨0, ![]⟩
abbrev S2228224x1 : Shape := ⟨2, ![2228224, 1]⟩
abbrev S131072x64 : Shape := ⟨2, ![131072, 64]⟩
abbrev S2048x768 : Shape := ⟨2, ![2048, 768]⟩
abbrev S2048x64 : Shape := ⟨2, ![2048, 64]⟩
abbrev S2228224x64 : Shape := ⟨2, ![2228224, 64]⟩
abbrev S1x64 : Shape := ⟨2, ![1, 64]⟩
abbrev S4096x2048 : Shape := ⟨2, ![4096, 2048]⟩
abbrev S2048x2 : Shape := ⟨2, ![2048, 2]⟩
abbrev S1x2 : Shape := ⟨2, ![1, 2]⟩
abbrev S4096x2 : Shape := ⟨2, ![4096, 2]⟩
abbrev S1024x2048 : Shape := ⟨2, ![1024, 2048]⟩
abbrev S1024x2 : Shape := ⟨2, ![1024, 2]⟩
abbrev S1024 : Shape := ⟨1, ![1024]⟩
abbrev S1024x1 : Shape := ⟨2, ![1024, 1]⟩

abbrev nBuf : Space → Nat
  | .hbm => 66
  | .vmem => 11
  | .smem => 0
  | _ => 0

abbrev bufTy : (tb : Table) → Fin (tcTables nBuf tb) → BufTy
  | .hbm, ⟨0, _⟩ => ⟨S131072x768, .f32⟩
  | .hbm, ⟨1, _⟩ => ⟨S2x2097152, .i32⟩
  | .hbm, ⟨2, _⟩ => ⟨S768x64, .f32⟩
  | .hbm, ⟨3, _⟩ => ⟨S64, .f32⟩
  | .hbm, ⟨4, _⟩ => ⟨S2x2048, .f32⟩
  | .hbm, ⟨5, _⟩ => ⟨S2, .f32⟩
  | .hbm, ⟨6, _⟩ => ⟨S131072, .i32⟩
  | .hbm, ⟨7, _⟩ => ⟨S1x2097152, .i32⟩
  | .hbm, ⟨8, _⟩ => ⟨S2097152, .i32⟩
  | .hbm, ⟨9, _⟩ => ⟨S2228224, .i32⟩
  | .hbm, ⟨10, _⟩ => ⟨S1x2097152, .i32⟩
  | .hbm, ⟨11, _⟩ => ⟨S2097152, .i32⟩
  | .hbm, ⟨12, _⟩ => ⟨S2228224, .i32⟩
  | .hbm, ⟨13, _⟩ => ⟨S_, .f32⟩
  | .hbm, ⟨14, _⟩ => ⟨S2228224, .f32⟩
  | .hbm, ⟨15, _⟩ => ⟨S_, .f32⟩
  | .hbm, ⟨16, _⟩ => ⟨S131072, .f32⟩
  | .hbm, ⟨17, _⟩ => ⟨S2228224x1, .i32⟩
  | .hbm, ⟨18, _⟩ => ⟨S131072, .f32⟩
  | .hbm, ⟨19, _⟩ => ⟨S131072, .f32⟩
  | .hbm, ⟨20, _⟩ => ⟨S_, .i32⟩
  | .hbm, ⟨21, _⟩ => ⟨S2228224, .i32⟩
  | .hbm, ⟨22, _⟩ => ⟨S2228224, .i1⟩
  | .hbm, ⟨23, _⟩ => ⟨S_, .i32⟩
  | .hbm, ⟨24, _⟩ => ⟨S2228224, .i32⟩
  | .hbm, ⟨25, _⟩ => ⟨S2228224, .i32⟩
  | .hbm, ⟨26, _⟩ => ⟨S2228224, .i32⟩
  | .hbm, ⟨27, _⟩ => ⟨S2228224x1, .i32⟩
  | .hbm, ⟨28, _⟩ => ⟨S2228224, .f32⟩
  | .hbm, ⟨29, _⟩ => ⟨S_, .i32⟩
  | .hbm, ⟨30, _⟩ => ⟨S2228224, .i32⟩
  | .hbm, ⟨31, _⟩ => ⟨S2228224, .i1⟩
  | .hbm, ⟨32, _⟩ => ⟨S_, .i32⟩
  | .hbm, ⟨33, _⟩ => ⟨S2228224, .i32⟩
  | .hbm, ⟨34, _⟩ => ⟨S2228224, .i32⟩
  | .hbm, ⟨35, _⟩ => ⟨S2228224, .i32⟩
  | .hbm, ⟨36, _⟩ => ⟨S2228224x1, .i32⟩
  | .hbm, ⟨37, _⟩ => ⟨S2228224, .f32⟩
  | .hbm, ⟨38, _⟩ => ⟨S2228224, .f32⟩
  | .hbm, ⟨39, _⟩ => ⟨S131072x64, .f32⟩
  | .hbm, ⟨40, _⟩ => ⟨S_, .i32⟩
  | .hbm, ⟨41, _⟩ => ⟨S2228224, .i32⟩
  | .hbm, ⟨42, _⟩ => ⟨S2228224, .i1⟩
  | .hbm, ⟨43, _⟩ => ⟨S_, .i32⟩
  | .hbm, ⟨44, _⟩ => ⟨S2228224, .i32⟩
  | .hbm, ⟨45, _⟩ => ⟨S2228224, .i32⟩
  | .hbm, ⟨46, _⟩ => ⟨S2228224, .i32⟩
  | .hbm, ⟨47, _⟩ => ⟨S2228224x1, .i32⟩
  | .hbm, ⟨48, _⟩ => ⟨S2228224x64, .f32⟩
  | .hbm, ⟨49, _⟩ => ⟨S2228224x1, .f32⟩
  | .hbm, ⟨50, _⟩ => ⟨S2228224x64, .f32⟩
  | .hbm, ⟨51, _⟩ => ⟨S2228224x64, .f32⟩
  | .hbm, ⟨52, _⟩ => ⟨S_, .f32⟩
  | .hbm, ⟨53, _⟩ => ⟨S131072x64, .f32⟩
  | .hbm, ⟨54, _⟩ => ⟨S2228224x1, .i32⟩
  | .hbm, ⟨55, _⟩ => ⟨S131072x64, .f32⟩
  | .hbm, ⟨56, _⟩ => ⟨S1x64, .f32⟩
  | .hbm, ⟨57, _⟩ => ⟨S131072x64, .f32⟩
  | .hbm, ⟨58, _⟩ => ⟨S131072x64, .f32⟩
  | .hbm, ⟨59, _⟩ => ⟨S_, .f32⟩
  | .hbm, ⟨60, _⟩ => ⟨S131072x64, .f32⟩
  | .hbm, ⟨61, _⟩ => ⟨S131072x64, .f32⟩
  | .hbm, ⟨62, _⟩ => ⟨S4096x2048, .f32⟩
  | .hbm, ⟨63, _⟩ => ⟨S2048x2, .f32⟩
  | .hbm, ⟨64, _⟩ => ⟨S1x2, .f32⟩
  | .hbm, ⟨65, _⟩ => ⟨S4096x2, .f32⟩
  | .local _ .vmem, ⟨0, _⟩ => ⟨S2048x768, .f32⟩
  | .local _ .vmem, ⟨1, _⟩ => ⟨S2048x768, .f32⟩
  | .local _ .vmem, ⟨2, _⟩ => ⟨S768x64, .f32⟩
  | .local _ .vmem, ⟨3, _⟩ => ⟨S2048x64, .f32⟩
  | .local _ .vmem, ⟨4, _⟩ => ⟨S2048x64, .f32⟩
  | .local _ .vmem, ⟨5, _⟩ => ⟨S1024x2048, .f32⟩
  | .local _ .vmem, ⟨6, _⟩ => ⟨S1024x2048, .f32⟩
  | .local _ .vmem, ⟨7, _⟩ => ⟨S2048x2, .f32⟩
  | .local _ .vmem, ⟨8, _⟩ => ⟨S1x2, .f32⟩
  | .local _ .vmem, ⟨9, _⟩ => ⟨S1024x2, .f32⟩
  | .local _ .vmem, ⟨10, _⟩ => ⟨S1024x2, .f32⟩
  | _, _ => ⟨S131072x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x2097152_S1x2097152_0_0 : S2x2097152.Slices ![0, 0] S1x2097152
  shapeCasts_S1x2097152_S2097152 : S1x2097152.ShapeCasts S2097152
  concatenates_S2097152_S131072_S2228224_d0 : Shape.Concatenates [S2097152, S131072] S2228224 0
  slices_S2x2097152_S1x2097152_1_0 : S2x2097152.Slices ![1, 0] S1x2097152
  bcast_S_S2228224 : S_.BroadcastsInDim S2228224 (![] : Fin 0 → Fin S2228224.rank)
  bcast_S_S131072 : S_.BroadcastsInDim S131072 (![] : Fin 0 → Fin S131072.rank)
  bcast_S2228224_S2228224x1_0 : S2228224.BroadcastsInDim S2228224x1 (![0] : Fin 1 → Fin S2228224x1.rank)
  inb_S2048x768_S2048x768_0_0 : ∀ a, (![0, 0] : Fin 2 → Nat) a + S2048x768.size a ≤ S2048x768.size a
  h_S2048x768 : 0 < S2048x768.numel
  bitsLt_bf16_f32 : FTy.bits .bf16 < FTy.bits .f32
  inb_S768x64_S768x64_0_0 : ∀ a, (![0, 0] : Fin 2 → Nat) a + S768x64.size a ≤ S768x64.size a
  h_S768x64 : 0 < S768x64.numel
  inb_S2048x64_S2048x64_0_0 : ∀ a, (![0, 0] : Fin 2 → Nat) a + S2048x64.size a ≤ S2048x64.size a
  h_S2048x64 : 0 < S2048x64.numel
  bcast_S2228224x1_S2228224x64_0_1 : S2228224x1.BroadcastsInDim S2228224x64 (![0, 1] : Fin 2 → Fin S2228224x64.rank)
  bcast_S_S131072x64 : S_.BroadcastsInDim S131072x64 (![] : Fin 0 → Fin S131072x64.rank)
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  shapeCasts_S131072x64_S4096x2048 : S131072x64.ShapeCasts S4096x2048
  transposes_S2x2048_S2048x2_1_0 : S2x2048.Transposes [1, 0] S2048x2
  shapeCasts_S2_S1x2 : S2.ShapeCasts S1x2
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x2_S2048x2_0_0 : ∀ a, (![0, 0] : Fin 2 → Nat) a + S2048x2.size a ≤ S2048x2.size a
  h_S2048x2 : 0 < S2048x2.numel
  shapeCasts_S2048x2_S2048x2 : S2048x2.ShapeCasts S2048x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  reduces_S1024x2_S1024 : S1024x2.Reduces [1] S1024
  shapeCasts_S1024_S1024x1 : S1024.ShapeCasts S1024x1
  broadcasts_S1024x1_S1024x2 : S1024x1.Broadcasts S1024x2
  inb_S1024x2_S1024x2_0_0 : ∀ a, (![0, 0] : Fin 2 → Nat) a + S1024x2.size a ≤ S1024x2.size a
  h_S1024x2 : 0 < S1024x2.numel
  scatter_S131072_S2228224x1_S2228224_n_0_0_1_wf : ScatterDims.WF S131072 S2228224x1 S2228224 [] [0] [0] 1
  gather_S131072_S2228224x1_S2228224_n_0_n_n_0_1_1_wf : GatherDims.WF S131072 S2228224x1 S2228224 [] [0] [] [0] [] 1 ![1]
  dot_S2048x768_S768x64_S2048x64_1_0_0_1_n_n_wf : DotDims.WF S2048x768 S768x64 S2048x64 [1] [0] [0] [1] [] []
  gather_S131072x64_S2228224x1_S2228224x64_1_0_n_n_0_1_164_wf : GatherDims.WF S131072x64 S2228224x1 S2228224x64 [1] [0] [] [0] [] 1 ![1, 64]
  scatter_S131072x64_S2228224x1_S2228224x64_1_0_0_1_wf : ScatterDims.WF S131072x64 S2228224x1 S2228224x64 [1] [0] [0] 1
  dot_S1024x2048_S2048x2_S1024x2_1_0_0_1_n_n_wf : DotDims.WF S1024x2048 S2048x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S131072x768.size a
  hwx0_0 : ∀ i : grid0.Coords, EltTy.bits .f32 = 32 ∨ (Rect.block (s := S131072x768) S2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x64.size a ≤ S768x64.size a
  hwx0_1 : ∀ i : grid0.Coords, EltTy.bits .f32 = 32 ∨ (Rect.block (s := S768x64) S768x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S131072x64.size a
  hwx0_2 : ∀ i : grid0.Coords, EltTy.bits .f32 = 32 ∨ (Rect.block (s := S131072x64) S2048x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S4096x2048.size a
  hwx1_0 : ∀ i : grid1.Coords, EltTy.bits .f32 = 32 ∨ (Rect.block (s := S4096x2048) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2.size a ≤ S2048x2.size a
  hwx1_1 : ∀ i : grid1.Coords, EltTy.bits .f32 = 32 ∨ (Rect.block (s := S2048x2) S2048x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2.size a ≤ S1x2.size a
  hwx1_2 : ∀ i : grid1.Coords, EltTy.bits .f32 = 32 ∨ (Rect.block (s := S1x2) S1x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2.size a ≤ S4096x2.size a
  hwx1_3 : ∀ i : grid1.Coords, EltTy.bits .f32 = 32 ∨ (Rect.block (s := S4096x2) S1024x2.size (cc1_transform_3 i) (hinb1_3 i)).WholeWords (EltTy.packing .f32)

variable [Facts₀]

def scatter_S131072_S2228224x1_S2228224_n_0_0_1 : ScatterDims S131072 S2228224x1 S2228224 where
  updateWindowDims := []
  insertedWindowDims := [0]
  scatterDimsToOperandDims := [0]
  indexVectorDim := 1
  wf := scatter_S131072_S2228224x1_S2228224_n_0_0_1_wf
def gather_S131072_S2228224x1_S2228224_n_0_n_n_0_1_1 : GatherDims S131072 S2228224x1 S2228224 where
  offsetDims := []
  collapsedSliceDims := [0]
  operandBatchingDims := []
  startIndicesBatchingDims := []
  startIndexMap := [0]
  indexVectorDim := 1
  sliceSizes := ![1]
  wf := gather_S131072_S2228224x1_S2228224_n_0_n_n_0_1_1_wf
def dot_S2048x768_S768x64_S2048x64_1_0_0_1_n_n : DotDims S2048x768 S768x64 S2048x64 where
  lhsContracting := [1]
  rhsContracting := [0]
  lhsNonContracting := [0]
  rhsNonContracting := [1]
  lhsBatch := []
  rhsBatch := []
  wf := dot_S2048x768_S768x64_S2048x64_1_0_0_1_n_n_wf
def gather_S131072x64_S2228224x1_S2228224x64_1_0_n_n_0_1_164 : GatherDims S131072x64 S2228224x1 S2228224x64 where
  offsetDims := [1]
  collapsedSliceDims := [0]
  operandBatchingDims := []
  startIndicesBatchingDims := []
  startIndexMap := [0]
  indexVectorDim := 1
  sliceSizes := ![1, 64]
  wf := gather_S131072x64_S2228224x1_S2228224x64_1_0_n_n_0_1_164_wf
def scatter_S131072x64_S2228224x1_S2228224x64_1_0_0_1 : ScatterDims S131072x64 S2228224x1 S2228224x64 where
  updateWindowDims := [1]
  insertedWindowDims := [0]
  scatterDimsToOperandDims := [0]
  indexVectorDim := 1
  wf := scatter_S131072x64_S2228224x1_S2228224x64_1_0_0_1_wf
def dot_S1024x2048_S2048x2_S1024x2_1_0_0_1_n_n : DotDims S1024x2048 S2048x2 S1024x2 where
  lhsContracting := [1]
  rhsContracting := [0]
  lhsNonContracting := [0]
  rhsNonContracting := [1]
  lhsBatch := []
  rhsBatch := []
  wf := dot_S1024x2048_S2048x2_S1024x2_1_0_0_1_n_n_wf

abbrev win0_0 : Pipeline.Window sig grid0 :=
  Pipeline.Window.ofSpec (Memref.whole main_arg0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S768x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S2048x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1024x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S131072x768 : Shape := ⟨2, ![131072, 768]⟩
abbrev S2x2097152 : Shape := ⟨2, ![2, 2097152]⟩
abbrev S768x64 : Shape := ⟨2, ![768, 64]⟩
abbrev S64 : Shape := ⟨1, ![64]⟩
abbrev S2x2048 : Shape := ⟨2, ![2, 2048]⟩
abbrev S2 : Shape := ⟨1, ![2]⟩
abbrev S131072 : Shape := ⟨1, ![131072]⟩
abbrev S1x2097152 : Shape := ⟨2, ![1, 2097152]⟩
abbrev S2097152 : Shape := ⟨1, ![2097152]⟩
abbrev S2228224 : Shape := ⟨1, ![2228224]⟩
abbrev S_ : Shape := ⟨0, ![]⟩
abbrev S2228224x1 : Shape := ⟨2, ![2228224, 1]⟩
abbrev S131072x64 : Shape := ⟨2, ![131072, 64]⟩
abbrev S2228224x64 : Shape := ⟨2, ![2228224, 64]⟩
abbrev S1x64 : Shape := ⟨2, ![1, 64]⟩
abbrev S4096x2048 : Shape := ⟨2, ![4096, 2048]⟩
abbrev S2048x2 : Shape := ⟨2, ![2048, 2]⟩
abbrev S4096x2 : Shape := ⟨2, ![4096, 2]⟩
abbrev S1x2 : Shape := ⟨2, ![1, 2]⟩
abbrev S4096 : Shape := ⟨1, ![4096]⟩
abbrev S4096x1 : Shape := ⟨2, ![4096, 1]⟩

abbrev nBuf : Space → Nat
  | .hbm => 83
  | .vmem => 0
  | .smem => 0
  | _ => 0

abbrev bufTy : (tb : Table) → Fin (tcTables nBuf tb) → BufTy
  | .hbm, ⟨0, _⟩ => ⟨S131072x768, .f32⟩
  | .hbm, ⟨1, _⟩ => ⟨S2x2097152, .i32⟩
  | .hbm, ⟨2, _⟩ => ⟨S768x64, .f32⟩
  | .hbm, ⟨3, _⟩ => ⟨S64, .f32⟩
  | .hbm, ⟨4, _⟩ => ⟨S2x2048, .f32⟩
  | .hbm, ⟨5, _⟩ => ⟨S2, .f32⟩
  | .hbm, ⟨6, _⟩ => ⟨S131072, .i32⟩
  | .hbm, ⟨7, _⟩ => ⟨S1x2097152, .i32⟩
  | .hbm, ⟨8, _⟩ => ⟨S2097152, .i32⟩
  | .hbm, ⟨9, _⟩ => ⟨S2228224, .i32⟩
  | .hbm, ⟨10, _⟩ => ⟨S1x2097152, .i32⟩
  | .hbm, ⟨11, _⟩ => ⟨S2097152, .i32⟩
  | .hbm, ⟨12, _⟩ => ⟨S2228224, .i32⟩
  | .hbm, ⟨13, _⟩ => ⟨S_, .f32⟩
  | .hbm, ⟨14, _⟩ => ⟨S2228224, .f32⟩
  | .hbm, ⟨15, _⟩ => ⟨S_, .f32⟩
  | .hbm, ⟨16, _⟩ => ⟨S131072, .f32⟩
  | .hbm, ⟨17, _⟩ => ⟨S2228224x1, .i32⟩
  | .hbm, ⟨18, _⟩ => ⟨S131072, .f32⟩
  | .hbm, ⟨19, _⟩ => ⟨S131072, .f32⟩
  | .hbm, ⟨20, _⟩ => ⟨S_, .i32⟩
  | .hbm, ⟨21, _⟩ => ⟨S2228224, .i32⟩
  | .hbm, ⟨22, _⟩ => ⟨S2228224, .i1⟩
  | .hbm, ⟨23, _⟩ => ⟨S_, .i32⟩
  | .hbm, ⟨24, _⟩ => ⟨S2228224, .i32⟩
  | .hbm, ⟨25, _⟩ => ⟨S2228224, .i32⟩
  | .hbm, ⟨26, _⟩ => ⟨S2228224, .i32⟩
  | .hbm, ⟨27, _⟩ => ⟨S2228224x1, .i32⟩
  | .hbm, ⟨28, _⟩ => ⟨S2228224, .f32⟩
  | .hbm, ⟨29, _⟩ => ⟨S_, .i32⟩
  | .hbm, ⟨30, _⟩ => ⟨S2228224, .i32⟩
  | .hbm, ⟨31, _⟩ => ⟨S2228224, .i1⟩
  | .hbm, ⟨32, _⟩ => ⟨S_, .i32⟩
  | .hbm, ⟨33, _⟩ => ⟨S2228224, .i32⟩
  | .hbm, ⟨34, _⟩ => ⟨S2228224, .i32⟩
  | .hbm, ⟨35, _⟩ => ⟨S2228224, .i32⟩
  | .hbm, ⟨36, _⟩ => ⟨S2228224x1, .i32⟩
  | .hbm, ⟨37, _⟩ => ⟨S2228224, .f32⟩
  | .hbm, ⟨38, _⟩ => ⟨S2228224, .f32⟩
  | .hbm, ⟨39, _⟩ => ⟨S131072x64, .f32⟩
  | .hbm, ⟨40, _⟩ => ⟨S_, .i32⟩
  | .hbm, ⟨41, _⟩ => ⟨S2228224, .i32⟩
  | .hbm, ⟨42, _⟩ => ⟨S2228224, .i1⟩
  | .hbm, ⟨43, _⟩ => ⟨S_, .i32⟩
  | .hbm, ⟨44, _⟩ => ⟨S2228224, .i32⟩
  | .hbm, ⟨45, _⟩ => ⟨S2228224, .i32⟩
  | .hbm, ⟨46, _⟩ => ⟨S2228224, .i32⟩
  | .hbm, ⟨47, _⟩ => ⟨S2228224x1, .i32⟩
  | .hbm, ⟨48, _⟩ => ⟨S2228224x64, .f32⟩
  | .hbm, ⟨49, _⟩ => ⟨S2228224x1, .f32⟩
  | .hbm, ⟨50, _⟩ => ⟨S2228224x64, .f32⟩
  | .hbm, ⟨51, _⟩ => ⟨S2228224x64, .f32⟩
  | .hbm, ⟨52, _⟩ => ⟨S_, .f32⟩
  | .hbm, ⟨53, _⟩ => ⟨S131072x64, .f32⟩
  | .hbm, ⟨54, _⟩ => ⟨S2228224x1, .i32⟩
  | .hbm, ⟨55, _⟩ => ⟨S131072x64, .f32⟩
  | .hbm, ⟨56, _⟩ => ⟨S1x64, .f32⟩
  | .hbm, ⟨57, _⟩ => ⟨S131072x64, .f32⟩
  | .hbm, ⟨58, _⟩ => ⟨S131072x64, .f32⟩
  | .hbm, ⟨59, _⟩ => ⟨S_, .f32⟩
  | .hbm, ⟨60, _⟩ => ⟨S131072x64, .f32⟩
  | .hbm, ⟨61, _⟩ => ⟨S131072x64, .f32⟩
  | .hbm, ⟨62, _⟩ => ⟨S4096x2048, .f32⟩
  | .hbm, ⟨63, _⟩ => ⟨S2048x2, .f32⟩
  | .hbm, ⟨64, _⟩ => ⟨S4096x2, .f32⟩
  | .hbm, ⟨65, _⟩ => ⟨S1x2, .f32⟩
  | .hbm, ⟨66, _⟩ => ⟨S4096x2, .f32⟩
  | .hbm, ⟨67, _⟩ => ⟨S4096x2, .f32⟩
  | .hbm, ⟨68, _⟩ => ⟨S_, .f32⟩
  | .hbm, ⟨69, _⟩ => ⟨S4096, .f32⟩
  | .hbm, ⟨70, _⟩ => ⟨S_, .f32⟩
  | .hbm, ⟨71, _⟩ => ⟨S4096, .f32⟩
  | .hbm, ⟨72, _⟩ => ⟨S4096, .f32⟩
  | .hbm, ⟨73, _⟩ => ⟨S4096x1, .f32⟩
  | .hbm, ⟨74, _⟩ => ⟨S4096x2, .f32⟩
  | .hbm, ⟨75, _⟩ => ⟨S4096x2, .f32⟩
  | .hbm, ⟨76, _⟩ => ⟨S4096x2, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x1, .f32⟩
  | .hbm, ⟨81, _⟩ => ⟨S4096x2, .f32⟩
  | .hbm, ⟨82, _⟩ => ⟨S4096x2, .f32⟩
  | _, _ => ⟨S131072x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_call1_cst : Ref sig .tc := ⟨.hbm, 68, rfl⟩
abbrev main_call1_v0 : Ref sig .tc := ⟨.hbm, 69, rfl⟩
abbrev main_call1_cst_0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_cst_1 : Ref sig .tc := ⟨.hbm, 77, rfl⟩
abbrev main_call1_v7 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_v51 : Ref sig .tc := ⟨.hbm, 82, rfl⟩

abbrev nD : Nat := 1
abbrev τ : Topo := Topo.v7x

variable {F : FTy → Type} [FloatOps F]

class Facts₀ : Prop where
  slices_S2x2097152_S1x2097152_0_0 : S2x2097152.Slices ![0, 0] S1x2097152
  shapeCasts_S1x2097152_S2097152 : S1x2097152.ShapeCasts S2097152
  concatenates_S2097152_S131072_S2228224_d0 : Shape.Concatenates [S2097152, S131072] S2228224 0
  slices_S2x2097152_S1x2097152_1_0 : S2x2097152.Slices ![1, 0] S1x2097152
  bcast_S_S2228224 : S_.BroadcastsInDim S2228224 (![] : Fin 0 → Fin S2228224.rank)
  bcast_S_S131072 : S_.BroadcastsInDim S131072 (![] : Fin 0 → Fin S131072.rank)
  bcast_S2228224_S2228224x1_0 : S2228224.BroadcastsInDim S2228224x1 (![0] : Fin 1 → Fin S2228224x1.rank)
  bcast_S2228224x1_S2228224x64_0_1 : S2228224x1.BroadcastsInDim S2228224x64 (![0, 1] : Fin 2 → Fin S2228224x64.rank)
  bcast_S_S131072x64 : S_.BroadcastsInDim S131072x64 (![] : Fin 0 → Fin S131072x64.rank)
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  shapeCasts_S131072x64_S4096x2048 : S131072x64.ShapeCasts S4096x2048
  transposes_S2x2048_S2048x2_1_0 : S2x2048.Transposes [1, 0] S2048x2
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  reducesTo_S4096x2_S4096_d1 : S4096x2.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x2_0_1 : S4096x1.BroadcastsInDim S4096x2 (![0, 1] : Fin 2 → Fin S4096x2.rank)
  scatter_S131072_S2228224x1_S2228224_n_0_0_1_wf : ScatterDims.WF S131072 S2228224x1 S2228224 [] [0] [0] 1
  gather_S131072_S2228224x1_S2228224_n_0_n_n_0_1_1_wf : GatherDims.WF S131072 S2228224x1 S2228224 [] [0] [] [0] [] 1 ![1]
  dot_S131072x768_S768x64_S131072x64_1_0_0_1_n_n_wf : DotDims.WF S131072x768 S768x64 S131072x64 [1] [0] [0] [1] [] []
  gather_S131072x64_S2228224x1_S2228224x64_1_0_n_n_0_1_164_wf : GatherDims.WF S131072x64 S2228224x1 S2228224x64 [1] [0] [] [0] [] 1 ![1, 64]
  scatter_S131072x64_S2228224x1_S2228224x64_1_0_0_1_wf : ScatterDims.WF S131072x64 S2228224x1 S2228224x64 [1] [0] [0] 1
  dot_S4096x2048_S2048x2_S4096x2_1_0_0_1_n_n_wf : DotDims.WF S4096x2048 S2048x2 S4096x2 [1] [0] [0] [1] [] []

variable [Facts₀]

def scatter_S131072_S2228224x1_S2228224_n_0_0_1 : ScatterDims S131072 S2228224x1 S2228224 where
  updateWindowDims := []
  insertedWindowDims := [0]
  scatterDimsToOperandDims := [0]
  indexVectorDim := 1
  wf := scatter_S131072_S2228224x1_S2228224_n_0_0_1_wf
def gather_S131072_S2228224x1_S2228224_n_0_n_n_0_1_1 : GatherDims S131072 S2228224x1 S2228224 where
  offsetDims := []
  collapsedSliceDims := [0]
  operandBatchingDims := []
  startIndicesBatchingDims := []
  startIndexMap := [0]
  indexVectorDim := 1
  sliceSizes := ![1]
  wf := gather_S131072_S2228224x1_S2228224_n_0_n_n_0_1_1_wf
def dot_S131072x768_S768x64_S131072x64_1_0_0_1_n_n : DotDims S131072x768 S768x64 S131072x64 where
  lhsContracting := [1]
  rhsContracting := [0]
  lhsNonContracting := [0]
  rhsNonContracting := [1]
  lhsBatch := []
  rhsBatch := []
  wf := dot_S131072x768_S768x64_S131072x64_1_0_0_1_n_n_wf
def gather_S131072x64_S2228224x1_S2228224x64_1_0_n_n_0_1_164 : GatherDims S131072x64 S2228224x1 S2228224x64 where
  offsetDims := [1]
  collapsedSliceDims := [0]
  operandBatchingDims := []
  startIndicesBatchingDims := []
  startIndexMap := [0]
  indexVectorDim := 1
  sliceSizes := ![1, 64]
  wf := gather_S131072x64_S2228224x1_S2228224x64_1_0_n_n_0_1_164_wf
def scatter_S131072x64_S2228224x1_S2228224x64_1_0_0_1 : ScatterDims S131072x64 S2228224x1 S2228224x64 where
  updateWindowDims := [1]
  insertedWindowDims := [0]
  scatterDimsToOperandDims := [0]
  indexVectorDim := 1
  wf := scatter_S131072x64_S2228224x1_S2228224x64_1_0_0_1_wf
def dot_S4096x2048_S2048x2_S4096x2_1_0_0_1_n_n : DotDims S4096x2048 S2048x2 S4096x2 where
  lhsContracting := [1]
  rhsContracting := [0]
  lhsNonContracting := [0]
  rhsNonContracting := [1]
  lhsBatch := []
  rhsBatch := []
  wf := dot_S4096x2048_S2048x2_S4096x2_1_0_0_1_n_n_wf

class Facts : Prop extends Facts₀ where

variable [Facts]
-- ==== Proof.KRun.lean ====
/-
  The idealized kernel's run with EVERY buffer of the TensorCore named: every weakly fair execution of @main
  terminates, and at the end each unscoped buffer holds what the fold through @main's segments leaves there
  (the host stretches' composed operations, and at each region's arrays what its write-backs leave).
  The result buffer is one of them; the value proof reads it off this fold.
-/
import proofs.«100887_j7249904795690_1_alg».proof.Proof.Gen.KernelIdeal.Frame

set_option maxRecDepth 16384

noncomputable section

namespace Cert.KernelIdeal.RunAll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, nothing faulting, and every final state holds, at each
    unscoped buffer of each core, the contents the fold `Gen.W6` names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KernelIdeal.RunAll

end
-- ==== Proof.Region0.lean ====
/-
  The first kernel region, read as one whole-array function.  The region multiplies x [131072, 768] by W_conv [768, 64]
  in 64 blocks of 2048 rows: at grid point t it loads rows 2048·t … 2048·t + 2047 of x and all of W_conv, contracts
  them over the 768 columns into a zero accumulator (the bf16 truncations are the identity on extended reals), and
  writes the [2048, 64] product back as block t of the result.  Row r of the result is therefore written by point
  r / 2048 and only by it, and entry (r, j) is ∑ₖ x(r, k) · W(k, j): the reference's dot_general, index by index.
-/
import proofs.«100887_j7249904795690_1_alg».proof.Proof.Gen.KernelIdeal.Frame
import proofs.«100887_j7249904795690_1_alg».proof.Proof.RefRead
import Idealize.ShloMosaic.Lib.ValueIdx
import Idealize.ShloMosaic.Lib.Pipeline.Value
import Idealize.ShloMosaic.PureOps.Ideal.Laws

set_option maxRecDepth 16384

noncomputable section

namespace Cert.Bridge.Feat

open Idealize.ShloMosaic Idealize.ShloMosaic.TcCoe Idealize.SL.Sem
open Idealize.ShloMosaic.Pipeline (Dat Cfg Window)
open Cert.KernelIdeal Cert.KernelIdeal.Gen

/-- The contraction record of the body's product, [2048, 768] × [768, 64] → [2048, 64]. -/
abbrev D0 : DotDims S2048x768 S768x64 S2048x64 := dot_S2048x768_S768x64_S2048x64_1_0_0_1_n_n

/-- Row `y 0`, column `k` of the left block. -/
abbrev lK (y : S2048x64.Idx) (k : Fin 768) : S2048x768.Idx := fun a => match a with
  | ⟨0, _⟩ => ⟨(y 0).val, (y 0).isLt⟩
  | ⟨1, _⟩ => ⟨k.val, k.isLt⟩
/-- Row `k`, column `y 1` of the right operand. -/
abbrev rK (y : S2048x64.Idx) (k : Fin 768) : S768x64.Idx := fun a => match a with
  | ⟨0, _⟩ => ⟨k.val, k.isLt⟩
  | ⟨1, _⟩ => ⟨(y 1).val, (y 1).isLt⟩

theorem lhs_0 (y : S2048x64.Idx) (q : D0.contr.Idx) : (D0.lhsIdx y q 0).val = (y 0).val := by
  unfold DotDims.lhsIdx
  rw [dif_neg (show ¬(0 : Fin S2048x768.rank) ∈ D0.lhsBatch by decide), dif_pos (show (0 : Fin S2048x768.rank) ∈ D0.lhsNonContracting by decide)]
  rfl
theorem lhs_1 (y : S2048x64.Idx) (q : D0.contr.Idx) : (D0.lhsIdx y q 1).val = (q ⟨0, by decide⟩).val :=
  D0.lhsIdx_val_of_single rfl y q
theorem rhs_0 (y : S2048x64.Idx) (q : D0.contr.Idx) : (D0.rhsIdx y q 0).val = (q ⟨0, by decide⟩).val :=
  D0.rhsIdx_val_of_single rfl y q
theorem rhs_1 (y : S2048x64.Idx) (q : D0.contr.Idx) : (D0.rhsIdx y q 1).val = (y 1).val := by
  unfold DotDims.rhsIdx
  rw [dif_neg (show ¬(1 : Fin S768x64.rank) ∈ D0.rhsBatch by decide), dif_pos (show (1 : Fin S768x64.rank) ∈ D0.rhsNonContracting by decide)]
  rfl

/-- The body's stored value at an entry of the block: the row of the left block against the column of the right
    operand, summed over the 768 contracted positions. -/
theorem pay_apply (x0 : Vec Ideal S2048x768 .f32) (x1 : Vec Ideal S768x64 .f32) (y : S2048x64.Idx) :
    k0_pay1 (F := Ideal) x0 x1 y = ∑ k : Fin 768, x0 (lK y k) * x1 (rK y k) := by
  unfold k0_pay1
  refine (Ideal.matmul_constant_zero_apply D0 none _ _ y).trans ?_
  rw [← Equiv.sum_comp (ValueIdx.contrEquiv1 D0 768 rfl rfl).symm]
  refine Finset.sum_congr rfl fun k _ => ?_
  have hk := ValueIdx.contrEquiv1_symm_val D0 768 rfl rfl k
  have el : D0.lhsIdx y ((ValueIdx.contrEquiv1 D0 768 rfl rfl).symm k) = lK y k := funext fun a => Fin.ext (by
    match a with
    | ⟨0, _⟩ => exact lhs_0 _ _
    | ⟨1, _⟩ => exact (lhs_1 _ _).trans hk)
  have er : D0.rhsIdx y ((ValueIdx.contrEquiv1 D0 768 rfl rfl).symm k) = rK y k := funext fun a => Fin.ext (by
    match a with
    | ⟨0, _⟩ => exact (rhs_0 _ _).trans hk
    | ⟨1, _⟩ => exact rhs_1 _ _)
  rw [el, er]
  rfl

/-! ## From blocks to the array -/

theorem hz : (![0, 0] : Fin 2 → Nat) = fun _ => 0 := funext fun a => by fin_cases a <;> rfl

/-- The printed index maps over the 64 grid points: the left operand's row block moves with the result's, the right
    operand is always its one whole block, and the column block is always 0. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 63 :=
  (by decide +kernel : ∀ t : Fin grid0.N, _)

/-- Every row block of the result is some point's. -/
theorem idx_onto : ∀ q : Fin 64, ∃ t : Fin cfg0.N, win0_2.index t = ![q.val, 0] :=
  (by decide +kernel : ∀ q : Fin 64, ∃ t : Fin grid0.N, win0_2.index t = ![q.val, 0])

variable (V : (c : Dev nD) → (b : Ref sig .tc) → Buf (Elt Ideal) ((c : Thread nD τ).loc b))

/-- What point `t` writes back is block `t` of the product of the two arrays as the region finds them. -/
theorem flushed_eq (c : Dev nD) (t : Fin cfg0.N) :
    (dat0 V c).flushed 2 t = ((cfg0.win 2).blk t).view.read (Elt Ideal)
      (Cert.ReferenceIdeal.Read.val_main_v27 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S2048x768) hz, View.ld_unit_zero (S := S768x64) hz]
  obtain ⟨e0, e1, e2, e3, e4, e5⟩ := idx_facts t
  funext j
  refine (pay_apply (iblk0 V c 0 t) (iblk0 V c 1 t) j).trans ?_
  refine Eq.trans ?_ (Cert.ReferenceIdeal.Read.val_main_v27_apply (V c main_arg0) (V c main_arg2) (((cfg0.win 2).blk t).view.emb j)).symm
  refine Finset.sum_congr rfl fun k _ => ?_
  have h0 : ((cfg0.win 0).blk t).view.emb (lK j k) = Cert.ReferenceIdeal.Read.lidx_main_v27 (((cfg0.win 2).blk t).view.emb j) k := by
    funext a; apply Fin.ext
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 768 + 1 * k.val = k.val; omega
  have h1 : ((cfg0.win 1).blk t).view.emb (rK j k) = Cert.ReferenceIdeal.Read.ridx_main_v27 (((cfg0.win 2).blk t).view.emb j) k := by
    funext a; apply Fin.ext
    match a with
    | ⟨0, _⟩ => show win0_1.index t (0 : Fin 2) * 768 + 1 * k.val = k.val; omega
    | ⟨1, _⟩ => show win0_1.index t (1 : Fin 2) * 64 + 1 * (j 1).val = win0_2.index t (1 : Fin 2) * 64 + 1 * (j 1).val; omega
  refine congrArg₂ (fun a b : EReal => a * b) ?_ ?_
  · show (V c main_arg0 : S131072x768.Idx → EReal) (((cfg0.win 0).blk t).view.emb (lK j k))
      = (V c main_arg0 : S131072x768.Idx → EReal) (Cert.ReferenceIdeal.Read.lidx_main_v27 (((cfg0.win 2).blk t).view.emb j) k)
    rw [h0]
  · show (V c main_arg2 : S768x64.Idx → EReal) (((cfg0.win 1).blk t).view.emb (rK j k))
      = (V c main_arg2 : S768x64.Idx → EReal) (Cert.ReferenceIdeal.Read.ridx_main_v27 (((cfg0.win 2).blk t).view.emb j) k)
    rw [h1]

/-- An index of the result is in point `t`'s block iff each coordinate is in the block's range on its axis. -/
theorem mem_blk (t : Fin cfg0.N) (i : S131072x64.Idx) :
    i ∈ ((cfg0.win 2).blk t).view.set ↔ ∀ a : Fin 2, win0_2.index t a * S2048x64.size a ≤ (i a).val
      ∧ (i a).val < win0_2.index t a * S2048x64.size a + S2048x64.size a := by
  show i ∈ ((View.whole main_v27).slice (win0_2.rect t)).set ↔ _
  rw [View.set_slice_whole, Rect.mem_set_unit]
  exact Iff.rfl

/-- Row `r` of the result lies in the block of the point whose row block is `r / 2048`. -/
theorem cover (i : S131072x64.Idx) : ∃ t : Fin cfg0.N, (cfg0.win 2).flush t = true ∧ i ∈ ((cfg0.win 2).blk t).view.set := by
  have hi0 : (i 0).val < 131072 := (i 0).isLt
  have hi1 : (i 1).val < 64 := (i 1).isLt
  obtain ⟨t, ht⟩ := idx_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 64 ≤ (i 1).val ∧ (i 1).val < win0_2.index t (1 : Fin 2) * 64 + 64; omega

/-- THE FIRST REGION'S RESULT ARRAY after the region: the reference's product of the two arrays it was entered with. -/
theorem region0_value (c : Dev nD) :
    (dat0 V c).arrAt 2 cfg0.N = Cert.ReferenceIdeal.Read.val_main_v27 (F := Ideal) (V c main_arg0) (V c main_arg2) :=
  (dat0 V c).arrAt_eq_of_cover 2 _ (fun t _ => flushed_eq V c t) cover

end Cert.Bridge.Feat

end
-- ==== Proof.KHost.lean ====
/-
  The host stretches of the idealized kernel, read back.  Between the two kernel regions the kernel's @main applies
  to h (the first region's result) exactly the host operations the reference applies to its own x @ W_conv: the
  degrees by a scatter-add of ones over the destinations (edges, then one self-loop per node), their inverse square
  roots gathered at sources and destinations and multiplied, the messages h[src] · norm scatter-added at the
  destinations, the bias, the rectifier and the reshape to [4096, 2048].  So once h is the reference's product, the
  classifier region is entered with feat, W_linᵀ and the bias row at the reference's own stages of the arguments.
  The equalities are between the same operations spelt in the two programs; they are taken a few stages at a time
  (sources, destinations, the edge norm; then the stretch after the first region over those as variables).
-/
import proofs.«100887_j7249904795690_1_alg».proof.Proof.Gen.KernelIdeal.Frame
import proofs.«100887_j7249904795690_1_alg».proof.Proof.RefRead

set_option maxRecDepth 16384

noncomputable section

namespace Cert.Bridge.Host

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The first region is entered with x as launched: no host operation before it writes an argument. -/
theorem entry0_arg0 (c : Dev nD) : V1 m ρ c main_arg0 = m ((c : Thread nD τ).loc main_arg0) := by
  show StableHlo.after hostOps0 (W0 m ρ c) (Proc.devRef .tc main_arg0) = _
  after_results_simp <;> rfl

/-- The first region is entered with W_conv as launched. -/
theorem entry0_arg2 (c : Dev nD) : V1 m ρ c main_arg2 = m ((c : Thread nD τ).loc main_arg2) := by
  show StableHlo.after hostOps0 (W0 m ρ c) (Proc.devRef .tc main_arg2) = _
  after_results_simp <;> rfl

/-- The bias b_conv is as launched after the first stretch. -/
theorem stage_arg3 (c : Dev nD) : W1 m ρ c (Proc.devRef .tc main_arg3) = m ((c : Thread nD τ).loc main_arg3) := by
  show StableHlo.after hostOps0 (W0 m ρ c) (Proc.devRef .tc main_arg3) = _
  after_results_simp <;> rfl

/-- The sources (edge_index row 0, then the self-loops) after the first stretch: the reference's stage. -/
theorem stage_src (c : Dev nD) : W1 m ρ c (Proc.devRef .tc main_v3)
    = Cert.ReferenceIdeal.Read.val_main_v3 (F := Ideal) (m ((c : Thread nD τ).loc main_arg1)) := by
  show StableHlo.after hostOps0 (W0 m ρ c) (Proc.devRef .tc main_v3) = _
  after_results_simp
  rfl

/-- The destinations (edge_index row 1, then the self-loops) after the first stretch: the reference's stage. -/
theorem stage_dst (c : Dev nD) : W1 m ρ c (Proc.devRef .tc main_v6)
    = Cert.ReferenceIdeal.Read.val_main_v6 (F := Ideal) (m ((c : Thread nD τ).loc main_arg1)) := by
  show StableHlo.after hostOps0 (W0 m ρ c) (Proc.devRef .tc main_v6) = _
  after_results_simp
  rfl

/-- The edge norm dinv[src] · dinv[dst] after the first stretch: the reference's stage. -/
theorem stage_norm (c : Dev nD) : W1 m ρ c (Proc.devRef .tc main_v26)
    = Cert.ReferenceIdeal.Read.val_main_v26 (F := Ideal) (m ((c : Thread nD τ).loc main_arg1)) := by
  show StableHlo.after hostOps0 (W0 m ρ c) (Proc.devRef .tc main_v26) = _
  after_results_simp
  rfl

end Cert.Bridge.Host

end
-- ==== Proof.KHost2.lean ====
/-
  The classifier region's three input arrays, as the region finds them, are the reference's own stages of the
  arguments: feat (the aggregated, rectified, reshaped features), W_linᵀ, and the bias as a [1, 2] row; and the
  kernel's result buffer ends at what the classifier region's write-backs leave.
-/
import proofs.«100887_j7249904795690_1_alg».proof.Proof.KHost

set_option maxRecDepth 16384

noncomputable section

namespace Cert.Bridge.Host

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! A typed reference moves contents between the value's type and the buffer's own type along an equation of the two
    types; the move is the identity (heterogeneously), and a round trip is the identity. -/

theorem ofBuf_toBuf {T : BufTy} (x : TRef sig T) (v : T.Contents (Elt Ideal)) : x.ofBuf (x.toBuf v) = v := by
  obtain ⟨r, h, h1, h2⟩ := x
  subst h
  rfl

theorem toBuf_heq {T : BufTy} (x : TRef sig T) (v : T.Contents (Elt Ideal)) : HEq (x.toBuf v) v := by
  obtain ⟨r, h, h1, h2⟩ := x
  subst h
  exact HEq.rfl

theorem ofBuf_heq {T : BufTy} (x : TRef sig T) (v : x.ref.ty.Contents (Elt Ideal)) : HEq (x.ofBuf v) v := by
  obtain ⟨r, h, h1, h2⟩ := x
  subst h
  exact HEq.rfl

/-- The aggregate Σ h[src] · norm at dst, plus the bias, given that the first region left the reference's product h in
    its result buffer: the stretch after the first region is the same operations of h, the sources, the destinations,
    the edge norm and the bias in both programs. -/
theorem stage_agg (c : Dev nD) (hh : W2 m ρ c (Proc.devRef .tc main_v27) = Cert.ReferenceIdeal.Read.val_main_v27 (F := Ideal) (m ((c : Thread nD τ).loc main_arg0)) (m ((c : Thread nD τ).loc main_arg2))) :
    W3 m ρ c (Proc.devRef .tc main_v43) = Cert.ReferenceIdeal.Read.val_main_v43 (F := Ideal) (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_v43) = _
  after_results_simp
  rw [hh, W2_of_ne m ρ c main_v3 (by decide), W2_of_ne m ρ c main_v6 (by decide), W2_of_ne m ρ c main_v26 (by decide),
    W2_of_ne m ρ c main_arg3 (by decide), stage_src, stage_dst, stage_norm, stage_arg3]
  unfold Cert.ReferenceIdeal.Read.val_main_v43 Cert.ReferenceIdeal.Read.val_main_v42 Cert.ReferenceIdeal.Read.val_main_v41 Cert.ReferenceIdeal.Read.val_main_v40 Cert.ReferenceIdeal.Read.val_main_v39 Cert.ReferenceIdeal.Read.val_main_v38 Cert.ReferenceIdeal.Read.val_main_cst_6 Cert.ReferenceIdeal.Read.val_main_v37 Cert.ReferenceIdeal.Read.val_main_v36 Cert.ReferenceIdeal.Read.val_main_v35 Cert.ReferenceIdeal.Read.val_main_v34 Cert.ReferenceIdeal.Read.val_main_v33 Cert.ReferenceIdeal.Read.val_main_v32 Cert.ReferenceIdeal.Read.val_main_v31 Cert.ReferenceIdeal.Read.val_main_v30 Cert.ReferenceIdeal.Read.val_main_c_5 Cert.ReferenceIdeal.Read.val_main_v29 Cert.ReferenceIdeal.Read.val_main_v28 Cert.ReferenceIdeal.Read.val_main_c_4
  generalize Cert.ReferenceIdeal.Read.val_main_v3 (F := Ideal) (m ((c : Thread nD τ).loc main_arg1)) = a3
  generalize Cert.ReferenceIdeal.Read.val_main_v6 (F := Ideal) (m ((c : Thread nD τ).loc main_arg1)) = a6
  generalize Cert.ReferenceIdeal.Read.val_main_v26 (F := Ideal) (m ((c : Thread nD τ).loc main_arg1)) = a26
  generalize Cert.ReferenceIdeal.Read.val_main_v27 (F := Ideal) (m ((c : Thread nD τ).loc main_arg0)) (m ((c : Thread nD τ).loc main_arg2)) = hv
  generalize m ((c : Thread nD τ).loc main_arg3) = b3
  rfl

/-- The rectified aggregate. -/
theorem stage_relu (c : Dev nD) (hh : W2 m ρ c (Proc.devRef .tc main_v27) = Cert.ReferenceIdeal.Read.val_main_v27 (F := Ideal) (m ((c : Thread nD τ).loc main_arg0)) (m ((c : Thread nD τ).loc main_arg2))) :
    W4 m ρ c (Proc.devRef .tc main_v44) = Cert.ReferenceIdeal.Read.val_main_v44 (F := Ideal) (m ((c : Thread nD τ).loc main_arg0)) (m ((c : Thread nD τ).loc main_arg1)) (m ((c : Thread nD τ).loc main_arg2)) (m ((c : Thread nD τ).loc main_arg3)) := by
  show StableHlo.after hostOps1_1 (W3 m ρ c) (Proc.devRef .tc main_v44) = _
  generalize hU : W3 m ρ c = U
  after_results_simp
  rw [← hU, stage_agg m ρ c hh]
  unfold Cert.ReferenceIdeal.Read.val_main_v44 Cert.ReferenceIdeal.Read.val_main_call0_v0 Cert.ReferenceIdeal.Read.val_main_call0_cst
  generalize Cert.ReferenceIdeal.Read.val_main_v43 (F := Ideal) (m ((c : Thread nD τ).loc main_arg0)) (m ((c : Thread nD τ).loc main_arg1)) (m ((c : Thread nD τ).loc main_arg2)) (m ((c : Thread nD τ).loc main_arg3)) = a43
  rw [ofBuf_toBuf, ofBuf_toBuf]
  refine eq_of_heq ((toBuf_heq _ _).trans (heq_of_eq ?_))
  refine (congrArg (fun z => maximumf z _) (eq_of_heq (ofBuf_heq _ _))).trans ?_
  rfl

/-- feat: the rectified aggregate reshaped to [4096, 2048]. -/
theorem entry1_feat (c : Dev nD) (hh : W2 m ρ c (Proc.devRef .tc main_v27) = Cert.ReferenceIdeal.Read.val_main_v27 (F := Ideal) (m ((c : Thread nD τ).loc main_arg0)) (m ((c : Thread nD τ).loc main_arg2))) :
    V5 m ρ c main_v45 = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) := by
  show StableHlo.after hostOps1_2 (W4 m ρ c) (Proc.devRef .tc main_v45) = _
  generalize hU : W4 m ρ c = U
  after_results_simp
  rw [← hU, stage_relu m ρ c hh]
  unfold Cert.ReferenceIdeal.Read.val_main_v45
  generalize Cert.ReferenceIdeal.Read.val_main_v44 (F := Ideal) (m ((c : Thread nD τ).loc main_arg0)) (m ((c : Thread nD τ).loc main_arg1)) (m ((c : Thread nD τ).loc main_arg2)) (m ((c : Thread nD τ).loc main_arg3)) = a44
  rfl

/-- W_linᵀ as the classifier region finds it: the reference's transpose of W_lin. -/
theorem entry1_wt (c : Dev nD) :
    V5 m ρ c main_v46 = Cert.ReferenceIdeal.Read.val_main_v46 (F := Ideal) (m ((c : Thread nD τ).loc main_arg4)) := by
  show StableHlo.after hostOps1_2 (StableHlo.after hostOps1_1 (StableHlo.after hostOps1 (W2 m ρ c))) (Proc.devRef .tc main_v46) = _
  after_results_simp
  rw [W2_of_ne m ρ c main_arg4 (by decide)]
  have e : W1 m ρ c (Proc.devRef .tc main_arg4) = m ((c : Thread nD τ).loc main_arg4) := by
    show StableHlo.after hostOps0 (W0 m ρ c) (Proc.devRef .tc main_arg4) = _
    after_results_simp <;> rfl
  rw [e]
  rfl

/-- The bias as the classifier region finds it: b_lin reshaped to a [1, 2] row. -/
theorem entry1_bias (c : Dev nD) :
    V5 m ρ c main_v47 = shapeCast S1x2 (m ((c : Thread nD τ).loc main_arg5)) shapeCasts_S2_S1x2 := by
  show StableHlo.after hostOps1_2 (StableHlo.after hostOps1_1 (StableHlo.after hostOps1 (W2 m ρ c))) (Proc.devRef .tc main_v47) = _
  after_results_simp
  rw [W2_of_ne m ρ c main_arg5 (by decide)]
  have e : W1 m ρ c (Proc.devRef .tc main_arg5) = m ((c : Thread nD τ).loc main_arg5) := by
    show StableHlo.after hostOps0 (W0 m ρ c) (Proc.devRef .tc main_arg5) = _
    after_results_simp <;> rfl
  rw [e]
  rfl

/-- The first region's result buffer at its exit: what its write-backs leave. -/
theorem exit0 (c : Dev nD) : W2 m ρ c (Proc.devRef .tc main_v27) = (dat0 (V1 m ρ) c).arrAt 2 cfg0.N :=
  W2_arr m ρ c 2

/-- The kernel's result buffer at the end: what the classifier region's write-backs leave. -/
theorem exit1 (c : Dev nD) : W6 m ρ c (Proc.devRef .tc main_v48) = (dat1 (V5 m ρ) c).arrAt 3 cfg1.N :=
  W6_arr m ρ c 3

end Cert.Bridge.Host

end
-- ==== Proof.RealArr.lean ====
/-
  Arrays of extended reals all of whose entries are real numbers (neither +∞ nor -∞).
  The classifier's two groupings of the log-softmax, x - (m + L) and (x - m) - L, agree on real
  logits but differ when a logit is +∞; so the bridge carries this predicate from the inputs
  through every stage up to the logits.
-/
import Idealize.ShloMosaic.PureOps.Ideal

namespace Cert.Bridge

open Idealize.ShloMosaic

/-- Every entry of the array is a real number. -/
def IsReal {S : Shape} (v : S.Idx → EReal) : Prop := ∀ i, ∃ r : ℝ, v i = (r : EReal)

theorem IsReal.ne_top {S : Shape} {v : S.Idx → EReal} (h : IsReal v) (i : S.Idx) : v i ≠ ⊤ := by
  obtain ⟨r, hr⟩ := h i; rw [hr]; exact EReal.coe_ne_top r

theorem IsReal.ne_bot {S : Shape} {v : S.Idx → EReal} (h : IsReal v) (i : S.Idx) : v i ≠ ⊥ := by
  obtain ⟨r, hr⟩ := h i; rw [hr]; exact EReal.coe_ne_bot r

end Cert.Bridge
-- ==== Proof.FeatRealLib.lean ====
/-
  Closure of "every entry is a real number" under the operations of the graph-convolution layer:
  pointwise products, sums and maxima, reads of an operand at computed places (gathers and layout
  operations), contractions (finite sums of products), accumulating scatters (an entry plus a finite
  sum of updates), and the reciprocal square root of a positive real.
-/
import proofs.«100887_j7249904795690_1_alg».proof.Proof.RealArr
import Idealize.ShloMosaic.PureOps.Ideal.Laws
import Idealize.ShloMosaic.Lib.ValueIdx

open scoped BigOperators

namespace Cert.Bridge

open Idealize.ShloMosaic

/-- A finite sum of real numbers, taken in the extended reals, is the real sum. -/
theorem coe_finset_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A finite sum of extended reals each of which is a real number is a real number. -/
theorem exists_real_sum {ι : Type*} (s : Finset ι) (f : ι → EReal) (h : ∀ k ∈ s, ∃ r : ℝ, f k = (r : EReal)) :
    ∃ r : ℝ, ∑ k ∈ s, f k = (r : EReal) := by
  classical
  induction s using Finset.induction_on with
  | empty => exact ⟨0, by simp⟩
  | insert a s ha ih =>
    obtain ⟨r, hr⟩ := h a (Finset.mem_insert_self a s)
    obtain ⟨q, hq⟩ := ih (fun k hk => h k (Finset.mem_insert_of_mem hk))
    exact ⟨r + q, by rw [Finset.sum_insert ha, hr, hq, EReal.coe_add]⟩

/-- An array each of whose entries is some entry of an array of reals is an array of reals. -/
theorem IsReal.of_reads {S T : Shape} {v : S.Idx → EReal} (h : IsReal v) (w : T.Idx → EReal)
    (hw : ∀ j, ∃ i, w j = v i) : IsReal w := fun j => by
  obtain ⟨i, hi⟩ := hw j
  obtain ⟨r, hr⟩ := h i
  exact ⟨r, hi.trans hr⟩

/-- A constant array whose value is a real number. -/
theorem IsReal.of_const {S : Shape} (w : S.Idx → EReal) (r : ℝ) (hw : ∀ j, w j = (r : EReal)) : IsReal w :=
  fun j => ⟨r, hw j⟩

/-- The pointwise product of two arrays of reals. -/
theorem IsReal.mulf {S : Shape} {φ : FTy} {a b : FVec Ideal S φ} (ha : IsReal a) (hb : IsReal b) :
    IsReal (mulf a b) := fun i => by
  obtain ⟨r, hr⟩ := ha i
  obtain ⟨q, hq⟩ := hb i
  exact ⟨r * q, by rw [ValueIdx.mulf_apply, hr, hq, EReal.coe_mul]⟩

/-- The pointwise sum of two arrays of reals. -/
theorem IsReal.addf {S : Shape} {φ : FTy} {a b : FVec Ideal S φ} (ha : IsReal a) (hb : IsReal b) :
    IsReal (addf a b) := fun i => by
  obtain ⟨r, hr⟩ := ha i
  obtain ⟨q, hq⟩ := hb i
  exact ⟨r + q, by rw [ValueIdx.addf_apply, hr, hq, EReal.coe_add]⟩

/-- The pointwise maximum of two arrays of reals. -/
theorem IsReal.maximumf {S : Shape} {φ : FTy} {a b : FVec Ideal S φ} (ha : IsReal a) (hb : IsReal b) :
    IsReal (maximumf a b) := fun i => by
  obtain ⟨r, hr⟩ := ha i
  obtain ⟨q, hq⟩ := hb i
  refine ⟨max r q, ?_⟩
  rw [ValueIdx.maximumf_apply, hr, hq]
  exact (EReal.coe_strictMono.monotone.map_max).symm

/-- A gather reads, at every result index, some entry of its operand (wherever the start indices point,
    they are clamped into the operand). -/
theorem IsReal.gather {S SI T : Shape} {w : Nat} (d : GatherDims S SI T) {x : S.Idx → EReal} (hx : IsReal x)
    (idx : IVec SI w) : IsReal (Host.gather d x idx) :=
  fun j => hx (d.operandIdx j idx)

/-- An accumulating scatter of real updates into an array of reals: each entry is the operand's entry plus a
    finite sum of updates, whatever the scatter indices are. -/
theorem IsReal.scatterAdd {S SI U : Shape} {w : Nat} {φ : FTy} (d : ScatterDims S SI U) {x : FVec Ideal S φ}
    (hx : IsReal x) (idx : IVec SI w) {upd : FVec Ideal U φ} (hu : IsReal upd) :
    IsReal (Host.scatterAdd (F := Ideal) d x idx upd) := fun i => by
  obtain ⟨r, hr⟩ := hx i
  obtain ⟨q, hq⟩ := exists_real_sum (Finset.univ.filter (fun j => d.resultIdx? j idx = some i)) upd (fun k _ => hu k)
  refine ⟨r + q, ?_⟩
  show x i + ∑ j ∈ Finset.univ.filter (fun j => d.resultIdx? j idx = some i), upd j = _
  rw [hr, hq, EReal.coe_add]

/-- An accumulating scatter of ones into a zero entry that at least one update lands on: the entry is a positive
    real number (the number of updates that land on it). -/
theorem scatterAdd_ones_pos {S SI U : Shape} {w : Nat} {φ : FTy} (d : ScatterDims S SI U) (x : FVec Ideal S φ)
    (idx : IVec SI w) (upd : FVec Ideal U φ) (i : S.Idx) (hx : x i = ((0 : ℝ) : EReal))
    (hu : ∀ j, upd j = ((1 : ℝ) : EReal)) (j0 : U.Idx) (hj : d.resultIdx? j0 idx = some i) :
    ∃ r : ℝ, 0 < r ∧ Host.scatterAdd (F := Ideal) d x idx upd i = (r : EReal) := by
  have hmem : j0 ∈ Finset.univ.filter (fun j => d.resultIdx? j idx = some i) :=
    Finset.mem_filter.mpr ⟨Finset.mem_univ _, hj⟩
  refine ⟨((Finset.univ.filter (fun j => d.resultIdx? j idx = some i)).card : ℝ),
    by exact_mod_cast Finset.card_pos.mpr ⟨_, hmem⟩, ?_⟩
  show x i + ∑ j ∈ Finset.univ.filter (fun j => d.resultIdx? j idx = some i), upd j = _
  rw [hx, Finset.sum_congr rfl (fun j _ => hu j), coe_finset_sum, ← EReal.coe_add]
  congr 1
  simp

/-- A finite sum of products of reals is a real. -/
theorem exists_real_sum_mul {ι : Type*} [Fintype ι] (a b : ι → EReal) (ha : ∀ k, ∃ r : ℝ, a k = (r : EReal))
    (hb : ∀ k, ∃ r : ℝ, b k = (r : EReal)) : ∃ r : ℝ, ∑ k, a k * b k = (r : EReal) :=
  exists_real_sum Finset.univ (fun k => a k * b k) (fun k _ => by
    obtain ⟨r, hr⟩ := ha k
    obtain ⟨q, hq⟩ := hb k
    exact ⟨r * q, by rw [hr, hq, EReal.coe_mul]⟩)

/-- The reciprocal square root of a positive real number is a real number. -/
theorem rsqrt_real_of_pos {r : ℝ} (hr : 0 < r) : ∃ q : ℝ, Ideal.rsqrt (r : EReal) = (q : EReal) := by
  refine ⟨(Real.sqrt r)⁻¹, ?_⟩
  rw [Ideal.rsqrt_coe, if_neg (not_lt.mpr hr.le), if_neg hr.ne']

/-- The reciprocal square root of an array of positive reals. -/
theorem IsReal.rsqrt_of_pos {S : Shape} {φ : FTy} {x : FVec Ideal S φ} (hx : ∀ i, ∃ r : ℝ, 0 < r ∧ x i = (r : EReal)) :
    IsReal (Host.rsqrt (F := Ideal) x) := fun i => by
  obtain ⟨r, hr, hxr⟩ := hx i
  obtain ⟨q, hq⟩ := rsqrt_real_of_pos hr
  exact ⟨q, by show FloatOps.hostUnary .rsqrt (x i) = _; rw [Ideal.hostUnary_rsqrt_def, hxr, hq]⟩

/-- The word of the float 1.0 reads as the real number one. -/
theorem ofBits_one_f32 : Ideal.ofBits .f32 0x3F800000#32 = ((1 : ℝ) : EReal) := by
  rw [EReal.coe_one]; exact IdealRules.sign_bit.ideal_onePat .f32

/-- The zero word reads as the real number zero. -/
theorem ofBits_zero_f32' : Ideal.ofBits .f32 0x00000000#32 = ((0 : ℝ) : EReal) := by
  rw [EReal.coe_zero]; exact Ideal.ofBits_zero_f32

end Cert.Bridge
-- ==== Proof.FeatRealDeg.lean ====
/-
  The degree of every node is a real number at least one: the degree array is zero plus, at node i, the number of
  entries of the destination list equal to i, and the destination list ends with the self-loops 0, 1, …, 131071,
  so the self-loop of node i is always counted. Its reciprocal square root is therefore a real number.
-/
import proofs.«100887_j7249904795690_1_alg».proof.Proof.RefRead
import proofs.«100887_j7249904795690_1_alg».proof.Proof.FeatRealLib
import Idealize.ShloMosaic.Lib.Pipeline.Value

open scoped BigOperators

namespace Cert.Bridge

open Idealize.ShloMosaic Cert.ReferenceIdeal Cert.ReferenceIdeal.Gen Cert.ReferenceIdeal.Read

/-- The position of node `i`'s self-loop in the destination list: after the 2097152 edges, at place `i`. -/
abbrev selfLoop (i : S131072.Idx) : S2228224.Idx := fun a => match a with
  | ⟨0, _⟩ => ⟨2097152 + (i 0).val, by have h0 : (i 0).val < 131072 := (i 0).isLt; show 2097152 + (i 0).val < 2228224; omega⟩

/-- The destination list at a self-loop's position holds the node's own number. -/
theorem dst_selfLoop (x1 : IVec S2x2097152 32) (i : S131072.Idx) :
    val_main_v6 (F := Ideal) x1 (selfLoop i) = BitVec.ofNat 32 (i 0).val := by
  unfold val_main_v6
  refine (concatenate_pair_apply_right (0 : Fin S2228224.rank) (val_main_v5 (F := Ideal) x1) (val_main_v0 (F := Ideal))
    concatenates_S2097152_S131072_S2228224_d0 (selfLoop i) rfl rfl i (fun b hb => ?_) ?_).trans ?_
  · have hb0 : b.val < 1 := b.isLt
    exact absurd (Fin.ext (by show b.val = 0; omega)) hb
  · show (i 0).val + 2097152 = 2097152 + (i 0).val
    omega
  · rfl

/-- The self-loop update of node `i` lands on entry `i` of the degree array. -/
theorem deg_hit (x1 : IVec S2x2097152 32) (i : S131072.Idx) :
    scatter_S131072_S2228224x1_S2228224_n_0_0_1.resultIdx? (selfLoop i) (val_main_v9 (F := Ideal) x1) = some i := by
  have h0 : (i 0).val < 131072 := (i 0).isLt
  have hstart : ∀ a, scatter_S131072_S2228224x1_S2228224_n_0_0_1.start (selfLoop i) (val_main_v9 (F := Ideal) x1) a
      = ((i 0).val : Int) := by
    intro a
    obtain rfl : a = 0 := Subsingleton.elim _ _
    unfold ScatterDims.start
    rw [dif_pos (show (0 : Fin 1) ∈ scatter_S131072_S2228224x1_S2228224_n_0_0_1.scatterDimsToOperandDims from
      List.mem_singleton.mpr rfl)]
    have hsi : idx_main_v9 (scatter_S131072_S2228224x1_S2228224_n_0_0_1.siIdx (selfLoop i)
        ⟨List.idxOf (0 : Fin 1) scatter_S131072_S2228224x1_S2228224_n_0_0_1.scatterDimsToOperandDims,
          List.idxOf_lt_length_iff.2 (List.mem_singleton.mpr rfl)⟩) = selfLoop i := by
      funext b; refine Fin.ext ?_
      match b with
      | ⟨0, _⟩ => rfl
    rw [val_main_v9_apply, hsi, dst_selfLoop]
    rw [BitVec.toInt_eq_toNat_of_lt (by rw [BitVec.toNat_ofNat]; have := Nat.mod_le (i 0).val (2 ^ 32); norm_num at this ⊢; omega)]
    rw [BitVec.toNat_ofNat, Nat.mod_eq_of_lt (by norm_num; omega)]
  have hwin : ∀ a, scatter_S131072_S2228224x1_S2228224_n_0_0_1.window (selfLoop i) a = 0 := by
    intro a
    obtain rfl : a = 0 := Subsingleton.elim _ _
    rfl
  unfold ScatterDims.resultIdx?
  rw [dif_pos (fun a => by
    rw [hstart, hwin]
    obtain rfl : a = 0 := Subsingleton.elim _ _
    refine ⟨by omega, ?_⟩
    show ((i 0).val : Int) + ((0 : Nat) : Int) < ((131072 : Nat) : Int)
    omega)]
  refine congrArg some (funext fun a => Fin.ext ?_)
  obtain rfl : a = 0 := Subsingleton.elim _ _
  show (scatter_S131072_S2228224x1_S2228224_n_0_0_1.start (selfLoop i) (val_main_v9 (F := Ideal) x1) 0
    + scatter_S131072_S2228224x1_S2228224_n_0_0_1.window (selfLoop i) 0).toNat = (i 0).val
  rw [hstart, hwin]
  omega

/-- The degree of node `i` is a positive real number (the number of edges and self-loops that end at `i`). -/
theorem deg_pos (x1 : IVec S2x2097152 32) (i : S131072.Idx) :
    ∃ r : ℝ, 0 < r ∧ val_main_v10 (F := Ideal) x1 i = (r : EReal) := by
  have h8 : val_main_v8 (F := Ideal) i = ((0 : ℝ) : EReal) := by
    rw [val_main_v8_apply, val_main_cst_0_apply]; exact ofBits_zero_f32'
  have h7 : ∀ j, val_main_v7 (F := Ideal) j = ((1 : ℝ) : EReal) := fun j => by
    rw [val_main_v7_apply, val_main_cst_apply]; exact ofBits_one_f32
  exact scatterAdd_ones_pos scatter_S131072_S2228224x1_S2228224_n_0_0_1 (val_main_v8 (F := Ideal))
    (val_main_v9 (F := Ideal) x1) (val_main_v7 (F := Ideal)) i h8 h7 (selfLoop i) (deg_hit x1 i)

/-- The reciprocal square root of the degree array is an array of reals. -/
theorem dinv_real (x1 : IVec S2x2097152 32) : IsReal (val_main_v11 (F := Ideal) x1) :=
  IsReal.rsqrt_of_pos (deg_pos x1)

end Cert.Bridge
-- ==== Proof.FeatReal.lean ====
/-
  Every entry of the feature matrix that the classifier reads is a real number, whenever the node features, the
  convolution weights and the bias are real — whatever the edge list holds. Stage by stage: the normalisation
  1/sqrt(deg) is real because every degree is at least one; gathers only read entries of real arrays; the
  node-feature product is a finite sum of products of reals; the messages are products of reals; the aggregation
  is zero plus a finite sum of messages; bias, rectifier and reshape keep every entry real.
-/
import proofs.«100887_j7249904795690_1_alg».proof.Proof.RefRead
import proofs.«100887_j7249904795690_1_alg».proof.Proof.FeatRealLib
import proofs.«100887_j7249904795690_1_alg».proof.Proof.FeatRealDeg

open scoped BigOperators

namespace Cert.Bridge

open Idealize.ShloMosaic Cert.ReferenceIdeal Cert.ReferenceIdeal.Gen Cert.ReferenceIdeal.Read

/-- The edge normalisation dinv[src] * dinv[dst] is real. -/
theorem norm_real (x1 : IVec S2x2097152 32) : IsReal (val_main_v26 (F := Ideal) x1) := by
  have h18 : IsReal (val_main_v18 (F := Ideal) x1) := IsReal.gather _ (dinv_real x1) _
  have h25 : IsReal (val_main_v25 (F := Ideal) x1) := IsReal.gather _ (dinv_real x1) _
  exact IsReal.mulf h18 h25

/-- The transformed node features x @ W are real. -/
theorem h_real (x0 : FVec Ideal S131072x768 .f32) (x2 : FVec Ideal S768x64 .f32) (h0 : IsReal x0) (h2 : IsReal x2) :
    IsReal (val_main_v27 (F := Ideal) x0 x2) := fun i => by
  rw [val_main_v27_apply]
  exact exists_real_sum_mul _ _ (fun k => h0 _) (fun k => h2 _)

/-- The messages h[src] * norm are real. -/
theorem msg_real (x0 : FVec Ideal S131072x768 .f32) (x1 : IVec S2x2097152 32) (x2 : FVec Ideal S768x64 .f32)
    (h0 : IsReal x0) (h2 : IsReal x2) : IsReal (val_main_v37 (F := Ideal) x0 x1 x2) := by
  have h34 : IsReal (val_main_v34 (F := Ideal) x0 x1 x2) := IsReal.gather _ (h_real x0 x2 h0 h2) _
  have h35 : IsReal (val_main_v35 (F := Ideal) x1) :=
    IsReal.of_reads (norm_real x1) _ (fun j => ⟨_, val_main_v35_apply (F := Ideal) x1 j⟩)
  have h36 : IsReal (val_main_v36 (F := Ideal) x1) :=
    IsReal.of_reads h35 _ (fun j => ⟨_, val_main_v36_apply (F := Ideal) x1 j⟩)
  exact IsReal.mulf h34 h36

/-- The aggregated messages are real: zero plus a finite sum of messages at every node. -/
theorem agg_real (x0 : FVec Ideal S131072x768 .f32) (x1 : IVec S2x2097152 32) (x2 : FVec Ideal S768x64 .f32)
    (h0 : IsReal x0) (h2 : IsReal x2) : IsReal (val_main_v40 (F := Ideal) x0 x1 x2) := by
  have h38 : IsReal (val_main_v38 (F := Ideal)) :=
    IsReal.of_const _ 0 (fun j => by rw [val_main_v38_apply (F := Ideal), val_main_cst_6_apply (F := Ideal)]; exact ofBits_zero_f32')
  exact IsReal.scatterAdd _ h38 _ (msg_real x0 x1 x2 h0 h2)

/-- The layer's output after bias, rectifier and reshape is real. -/
theorem feat_real (x0 : FVec Ideal S131072x768 .f32) (x1 : IVec S2x2097152 32) (x2 : FVec Ideal S768x64 .f32)
    (x3 : FVec Ideal S64 .f32) (h0 : IsReal x0) (h2 : IsReal x2) (h3 : IsReal x3) :
    IsReal (Cert.ReferenceIdeal.Read.val_main_v45 (F := Ideal) x0 x1 x2 x3) := by
  have h41 : IsReal (val_main_v41 (F := Ideal) x3) :=
    IsReal.of_reads h3 _ (fun j => ⟨_, val_main_v41_apply (F := Ideal) x3 j⟩)
  have h42 : IsReal (val_main_v42 (F := Ideal) x3) :=
    IsReal.of_reads h41 _ (fun j => ⟨_, val_main_v42_apply (F := Ideal) x3 j⟩)
  have h43 : IsReal (val_main_v43 (F := Ideal) x0 x1 x2 x3) := IsReal.addf (agg_real x0 x1 x2 h0 h2) h42
  have hz : IsReal (val_main_call0_v0 (F := Ideal)) :=
    IsReal.of_const _ 0 (fun j => by rw [val_main_call0_v0_apply (F := Ideal), val_main_call0_cst_apply (F := Ideal)]; exact ofBits_zero_f32')
  have h44 : IsReal (val_main_v44 (F := Ideal) x0 x1 x2 x3) := IsReal.maximumf h43 hz
  exact IsReal.of_reads h44 _ (fun j => ⟨_, val_main_v45_apply (F := Ideal) x0 x1 x2 x3 j⟩)

end Cert.Bridge
-- ==== Proof.FeatRealPre.lean ====
/-
  From the precondition to real inputs. The predicate is the conjunction, over the five float arguments, of
  "every entry has absolute value below +∞"; an extended real whose absolute value is below +∞ is neither
  +∞ nor -∞, hence a real number.
-/
import proofs.«100887_j7249904795690_1_alg».proof.Proof.Gen.Pre_finite_inputs
import proofs.«100887_j7249904795690_1_alg».proof.Proof.RealArr
import Idealize.ShloMosaic.PureOps.Ideal.Laws
import Idealize.ShloMosaic.Lib.ValueIdx
import Idealize.ShloMosaic.Lib.ReduceAll

namespace Cert.Bridge

open Idealize.ShloMosaic Cert.Pre_finite_inputs Cert.Pre_finite_inputs.Gen

/-- The scalar shape has one index. -/
instance subsingleton_scalar_idx : Subsingleton Cert.Pre_finite_inputs.S_.Idx := ⟨fun a b => funext fun d => d.elim0⟩

/-- The word 0x7F800000 reads as +∞. -/
theorem ofBits_inf_f32 : Ideal.ofBits .f32 0x7F800000#32 = ⊤ := by simp [Ideal.ofBits, Ideal.ieee]

/-- An extended real whose absolute value compares below +∞ is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  rw [Ideal.hostAbsf_def, Ideal.ofBits_def, ofBits_inf_f32] at h
  induction x using EReal.rec with
  | bot => simp [Ideal.cmpf_def, Ideal.absf_def, Ideal.cmp] at h
  | top => simp [Ideal.cmpf_def, Ideal.absf_def, Ideal.cmp] at h
  | coe r => exact ⟨r, rfl⟩

/-- One conjunct of the predicate: if "all entries have absolute value below +∞" came out true, the array is real. -/
theorem isReal_of_all {S : Shape} (x : FVec Ideal S .f32) (hb : Cert.Pre_finite_inputs.S_.BroadcastsInDim S (![] : Fin 0 → Fin S.rank))
    {axes : List (Fin S.rank)} (hr : S.ReducesTo axes Cert.Pre_finite_inputs.S_) (hu : 0 < Cert.Pre_finite_inputs.S_.numel)
    (h : Host.reduce IntOp.andi
        (cmpf .olt (Host.absf x) (broadcastInDim S ![] hb (constant (F := Ideal) Cert.Pre_finite_inputs.S_ .f32 0x7F800000#32)))
        (constantI Cert.Pre_finite_inputs.S_ 1 1#1) hr hu ValueIdx.ix0 = 1#1) : IsReal x := fun i =>
  real_of_abs_lt_inf (x i) (Host.reduce_andi_all _ _ hr hu ValueIdx.ix0 h i)

/-- The precondition makes every float argument an array of real numbers. -/
theorem real_of_pre (x0 : FVec Ideal S131072x768 .f32) (x1 : IVec S2x2097152 32) (x2 : FVec Ideal S768x64 .f32)
    (x3 : FVec Ideal S64 .f32) (x4 : FVec Ideal S2x2048 .f32) (x5 : FVec Ideal S2 .f32)
    (h : Cert.Pre_finite_inputs.fn (F := Ideal) x0 x1 x2 x3 x4 x5 = fun _ => 1#1) :
    IsReal x0 ∧ IsReal x2 ∧ IsReal x3 ∧ IsReal x4 ∧ IsReal x5 := by
  have h' := congrFun h ValueIdx.ix0
  dsimp only [Cert.Pre_finite_inputs.fn, Cert.Pre_finite_inputs.fn_part1] at h'
  obtain ⟨h0234, h5⟩ := IntOp.andi_eq_one.1 h'
  obtain ⟨h023, h4⟩ := IntOp.andi_eq_one.1 h0234
  obtain ⟨h02, h3⟩ := IntOp.andi_eq_one.1 h023
  obtain ⟨h0, h2⟩ := IntOp.andi_eq_one.1 h02
  exact ⟨isReal_of_all x0 _ _ _ h0, isReal_of_all x2 _ _ _ h2, isReal_of_all x3 _ _ _ h3,
    isReal_of_all x4 _ _ _ h4, isReal_of_all x5 _ _ _ h5⟩

end Cert.Bridge
-- ==== Proof.ClsAlg.lean ====
/-
  The log-softmax of one row of two logits in the two groupings the two programs use,
  x_j - (m + log Σ exp (x_k - m)) and (x_j - m) - log Σ exp (x_k - m), and their agreement when both
  logits are real numbers (with a logit at +∞ the two differ); a finite sum of products of reals plus a
  real is a real.
-/
import Idealize.ShloMosaic.PureOps.Ideal.Laws

noncomputable section

namespace Cert.Bridge.Cls

open Idealize.ShloMosaic

/-- The f32 pattern of -∞ is the bottom element. -/
theorem ofBits_neg_inf : Ideal.ofBits .f32 0xFF800000#32 = ⊥ := by simp [Ideal.ofBits, Ideal.ieee]

/-- The row maximum as both programs fold it: `max` from -∞ over the two columns. -/
def rowMax (x : Fin 2 → EReal) : EReal :=
  (Finset.univ : Finset (Fin 2)).fold max (Ideal.ofBits .f32 0xFF800000#32) x

/-- The kernel's grouping of the row's log-softmax at column `j`. -/
def rowK (x : Fin 2 → EReal) (j : Fin 2) : EReal :=
  x j - (rowMax x + Ideal.log (∑ k : Fin 2, Ideal.exp (x k - rowMax x)))

/-- The reference's grouping: the maximum once more against -∞, the sum started from the zero pattern. -/
def rowR (x : Fin 2 → EReal) (j : Fin 2) : EReal :=
  (x j - max (Ideal.ofBits .f32 0xFF800000#32) (rowMax x))
    - Ideal.log (Ideal.ofBits .f32 0x00000000#32
        + ∑ k : Fin 2, Ideal.exp (x k - max (Ideal.ofBits .f32 0xFF800000#32) (rowMax x)))

/-- On two real logits the row maximum is the real maximum. -/
theorem rowMax_real (x : Fin 2 → EReal) (a c : ℝ) (h0 : x 0 = (a : EReal)) (h1 : x 1 = (c : EReal)) :
    rowMax x = ((max a c : ℝ) : EReal) := by
  unfold rowMax
  rw [ofBits_neg_inf, show (Finset.univ : Finset (Fin 2)) = {0, 1} from rfl, Finset.fold_insert (by decide),
    Finset.fold_singleton, h0, h1, max_eq_left (bot_le : (⊥ : EReal) ≤ (c : EReal))]
  exact (EReal.coe_strictMono.monotone.map_max).symm

/-- THE ALGEBRA: on real logits the two groupings are one value. -/
theorem rowK_eq_rowR (x : Fin 2 → EReal) (hx : ∀ k, ∃ r : ℝ, x k = (r : EReal)) (j : Fin 2) :
    rowK x j = rowR x j := by
  obtain ⟨a, h0⟩ := hx 0
  obtain ⟨c, h1⟩ := hx 1
  obtain ⟨xj, hj⟩ := hx j
  have hm := rowMax_real x a c h0 h1
  unfold rowK rowR
  rw [hm, ofBits_neg_inf, Ideal.ofBits_zero_f32, zero_add, max_eq_right (bot_le : (⊥ : EReal) ≤ _),
    Fin.sum_univ_two, h0, h1, hj]
  have hpos : ¬ (Real.exp (a - max a c) + Real.exp (c - max a c) ≤ 0) := not_le.mpr (by positivity)
  rw [← EReal.coe_sub, ← EReal.coe_sub, Ideal.exp_coe, Ideal.exp_coe, ← EReal.coe_add, Ideal.log_coe, if_neg hpos,
    ← EReal.coe_add, ← EReal.coe_sub, ← EReal.coe_sub, ← EReal.coe_sub]
  exact congrArg _ (by ring)

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of reals plus a real is a real. -/
theorem real_dot_add {ι : Type*} [Fintype ι] (f g : ι → EReal) (b : EReal) (hf : ∀ k, ∃ r : ℝ, f k = (r : EReal))
    (hg : ∀ k, ∃ r : ℝ, g k = (r : EReal)) (hb : ∃ r : ℝ, b = (r : EReal)) :
    ∃ r : ℝ, (∑ k, f k * g k) + b = (r : EReal) := by
  choose F hF using hf
  choose G hG using hg
  obtain ⟨β, rfl⟩ := hb
  refine ⟨(∑ k, F k * G k) + β, ?_⟩
  rw [EReal.coe_add, coe_finset_sum]
  exact congrArg (· + (β : EReal)) (Finset.sum_congr rfl fun k _ => by rw [hF k, hG k, EReal.coe_mul])

end Cert.Bridge.Cls

end
-- ==== Proof.ClsSpec.lean ====
/-
  The classifier's result as ONE function of its three arrays, index by index: at row r and column j the
  log-softmax (in the kernel's grouping) of the row's two logits, each logit the row of features against a
  column of the weights plus the bias.
-/
import proofs.«100887_j7249904795690_1_alg».proof.Proof.ClsAlg
import Idealize.ShloMosaic.Lib.ValueIdx

noncomputable section

namespace Cert.Bridge.Cls

open Idealize.ShloMosaic Idealize.ShloMosaic.ValueIdx

/-- The logit of row `r` at column `j`. -/
def logit (A : (⟨2, ![4096, 2048]⟩ : Shape).Idx → EReal) (B : (⟨2, ![2048, 2]⟩ : Shape).Idx → EReal)
    (b : (⟨2, ![1, 2]⟩ : Shape).Idx → EReal) (r : Fin 4096) (j : Fin 2) : EReal :=
  (∑ k : Fin 2048, A (ix2 r k) * B (ix2 k j)) + b (ix2 (0 : Fin 1) j)

/-- The classifier's result, in the kernel's grouping. -/
def G (A : (⟨2, ![4096, 2048]⟩ : Shape).Idx → EReal) (B : (⟨2, ![2048, 2]⟩ : Shape).Idx → EReal)
    (b : (⟨2, ![1, 2]⟩ : Shape).Idx → EReal) : (⟨2, ![4096, 2]⟩ : Shape).Idx → EReal :=
  fun i => rowK (fun j' => logit A B b (i 0 : Fin 4096) j') (i 1 : Fin 2)

theorem G_apply (A : (⟨2, ![4096, 2048]⟩ : Shape).Idx → EReal) (B : (⟨2, ![2048, 2]⟩ : Shape).Idx → EReal)
    (b : (⟨2, ![1, 2]⟩ : Shape).Idx → EReal) (r : Fin 4096) (j : Fin 2) :
    G A B b (ix2 r j) = rowK (fun j' => (∑ k : Fin 2048, A (ix2 r k) * B (ix2 k j')) + b (ix2 (0 : Fin 1) j')) j := rfl

end Cert.Bridge.Cls

end
-- ==== Proof.ClsLayout.lean ====
/-
  The keepdims column forms of the two layout operations a row reduction is followed by: a vector of
  row values cast to one column, and one column broadcast across the columns of a matrix, each read
  at an index given by coordinates.
-/
import Idealize.ShloMosaic.Lib.ValueLayout

namespace Cert.Bridge.Cls

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else c.val
    rw [if_pos rfl]

end Cert.Bridge.Cls
-- ==== Proof.ClsPay.lean ====
/-
  The classifier body's arithmetic read at an index of its block: the logits of the block's rows,
  a row of the block of features times the weights plus the bias, and on them the row's log-softmax
  in the kernel's grouping x_j - (m + log Σ exp (x_k - m)).
-/
import proofs.«100887_j7249904795690_1_alg».proof.Proof.Gen.KernelIdeal.Skeleton
import proofs.«100887_j7249904795690_1_alg».proof.Proof.ClsAlg
import proofs.«100887_j7249904795690_1_alg».proof.Proof.ClsLayout
import Idealize.ShloMosaic.Lib.ValueIdx
import Idealize.ShloMosaic.Lib.ValueLayout
import Idealize.ShloMosaic.PureOps.Ideal.Laws

noncomputable section

namespace Cert.Bridge.Cls

open Idealize.ShloMosaic Idealize.ShloMosaic.ValueIdx Cert.KernelIdeal

/-- The body's matmul record. -/
abbrev D : DotDims S1024x2048 S2048x2 S1024x2 := dot_S1024x2048_S2048x2_S1024x2_1_0_0_1_n_n

/-! ## The logits of a block -/

/-- The block's logits as the body computes them: the features' block times the weights into a zero
    accumulator, plus the bias row broadcast down the rows. -/
def logitsBlk (v0 : Vec Ideal S1024x2048 .f32) (v3 : Vec Ideal S2048x2 .f32) (v7 : Vec Ideal S1x2 .f32) :
    FVec Ideal S1024x2 .f32 :=
  addf (matmul D none
      (truncf .bf16 (shapeCast S1024x2048 v0 Gen.shapeCasts_S1024x2048_S1024x2048 : FVec Ideal S1024x2048 .f32) Gen.bitsLt_bf16_f32)
      (truncf .bf16 (shapeCast S2048x2 v3 Gen.shapeCasts_S2048x2_S2048x2 : FVec Ideal S2048x2 .f32) Gen.bitsLt_bf16_f32)
      (constant S1024x2 .f32 0x00000000#32))
    (broadcastTo S1024x2 (shapeCast S1x2 v7 Gen.shapeCasts_S1x2_S1x2 : FVec Ideal S1x2 .f32) Gen.broadcasts_S1x2_S1024x2)

theorem lhs_0 (i : S1024x2.Idx) (q : D.contr.Idx) : (D.lhsIdx i q 0).val = (i 0).val := by
  unfold DotDims.lhsIdx
  rw [dif_neg (show ¬(0 : Fin S1024x2048.rank) ∈ D.lhsBatch by decide),
    dif_pos (show (0 : Fin S1024x2048.rank) ∈ D.lhsNonContracting by decide)]
  rfl
theorem lhs_1 (i : S1024x2.Idx) (q : D.contr.Idx) : (D.lhsIdx i q 1).val = (q ⟨0, by decide⟩).val :=
  D.lhsIdx_val_of_single rfl i q
theorem rhs_0 (i : S1024x2.Idx) (q : D.contr.Idx) : (D.rhsIdx i q 0).val = (q ⟨0, by decide⟩).val :=
  D.rhsIdx_val_of_single rfl i q
theorem rhs_1 (i : S1024x2.Idx) (q : D.contr.Idx) : (D.rhsIdx i q 1).val = (i 1).val := by
  unfold DotDims.rhsIdx
  rw [dif_neg (show ¬(1 : Fin S2048x2.rank) ∈ D.rhsBatch by decide),
    dif_pos (show (1 : Fin S2048x2.rank) ∈ D.rhsNonContracting by decide)]
  rfl

/-- The logit of the block's row `p` at column `j`: the row of features against column `j` of the weights, plus
    the bias at `j`. -/
theorem logitsBlk_apply (v0 : Vec Ideal S1024x2048 .f32) (v3 : Vec Ideal S2048x2 .f32) (v7 : Vec Ideal S1x2 .f32)
    (p : Fin 1024) (j : Fin 2) :
    logitsBlk v0 v3 v7 (ix2 p j) = (∑ k : Fin 2048, v0 (ix2 p k) * v3 (ix2 k j)) + v7 (ix2 (0 : Fin 1) j) := by
  unfold logitsBlk
  refine (addf_apply _ _ _).trans ?_
  refine congrArg₂ (· + ·) ?_ ?_
  · refine (Ideal.matmul_constant_zero_apply D none _ _ (ix2 p j)).trans ?_
    rw [← Equiv.sum_comp (contrEquiv1 D 2048 rfl rfl).symm]
    refine Finset.sum_congr rfl fun k _ => ?_
    have hk := contrEquiv1_symm_val D 2048 rfl rfl k
    have el : D.lhsIdx (ix2 p j) ((contrEquiv1 D 2048 rfl rfl).symm k) = ix2 p k := funext fun a => Fin.ext (by
      match a with
      | ⟨0, _⟩ => exact lhs_0 _ _
      | ⟨1, _⟩ => exact (lhs_1 _ _).trans hk)
    have er : D.rhsIdx (ix2 p j) ((contrEquiv1 D 2048 rfl rfl).symm k) = ix2 k j := funext fun a => Fin.ext (by
      match a with
      | ⟨0, _⟩ => exact (rhs_0 _ _).trans hk
      | ⟨1, _⟩ => exact rhs_1 _ _)
    show shapeCast S1024x2048 v0 Gen.shapeCasts_S1024x2048_S1024x2048 _ * shapeCast S2048x2 v3 Gen.shapeCasts_S2048x2_S2048x2 _ = _
    rw [shapeCast_self, shapeCast_self, el, er]
  · refine (broadcastTo_1b_ab_apply _ _ p j).trans ?_
    exact congrFun (shapeCast_self v7 _) _

/-! ## The row's log-softmax on the block's logits -/

section Tail
variable (x : FVec Ideal S1024x2 .f32)

/-- The rows' maxima, from -∞. -/
def rmax : FVec Ideal S1024 .f32 :=
  multiReduction .maximumf [1] S1024 x 0xFF800000#32 Gen.reduces_S1024x2_S1024 (.inl rfl) rfl
/-- The maxima as one column. -/
def rmaxCol : FVec Ideal S1024x1 .f32 := shapeCast S1024x1 (rmax x) Gen.shapeCasts_S1024_S1024x1
/-- The logits less their row's maximum. -/
def shifted : FVec Ideal S1024x2 .f32 := subf x (broadcastTo S1024x2 (rmaxCol x) Gen.broadcasts_S1024x1_S1024x2)
/-- The rows' sums of exponentials. -/
def esum : FVec Ideal S1024 .f32 :=
  multiReduction .add [1] S1024 (exp (shifted x)) 0x00000000#32 Gen.reduces_S1024x2_S1024 (.inl rfl) rfl
/-- The body's result on the logits `x`: each logit less (its row's maximum plus the log of its row's sum). -/
def tail : FVec Ideal S1024x2 .f32 :=
  subf x (broadcastTo S1024x2
    (addf (rmaxCol x) (log (shapeCast S1024x1 (esum x) Gen.shapeCasts_S1024_S1024x1 : FVec Ideal S1024x1 .f32)))
    Gen.broadcasts_S1024x1_S1024x2)

theorem lift_eq (p : Fin 1024) (k : Fin 2) : Gen.reduces_S1024x2_S1024.lift (ix1 p) k = ix2 p k :=
  funext fun a => Fin.ext (by
    match a with
    | ⟨0, _⟩ => rfl
    | ⟨1, _⟩ => rfl)

theorem rmax_apply (p : Fin 1024) : rmax x (ix1 p) = rowMax (fun j' => x (ix2 p j')) := by
  unfold rmax
  refine (Ideal.multiReduction_maximumf_single x 0xFF800000#32 Gen.reduces_S1024x2_S1024 (.inl rfl) rfl (ix1 p)).trans ?_
  show (Finset.univ : Finset (Fin 2)).fold max (Ideal.ofBits .f32 0xFF800000#32)
    (fun k => x (Gen.reduces_S1024x2_S1024.lift (ix1 p) k)) = _
  unfold rowMax
  exact congrArg (fun f => (Finset.univ : Finset (Fin 2)).fold max (Ideal.ofBits .f32 0xFF800000#32) f)
    (funext fun k => congrArg x (lift_eq p k))

theorem rmaxCol_apply (p : Fin 1024) (u : Fin 1) : rmaxCol x (ix2 p u) = rowMax (fun j' => x (ix2 p j')) :=
  (shapeCast_a_a1_apply (rmax x) _ p u).trans (rmax_apply x p)

theorem shifted_apply (p : Fin 1024) (k : Fin 2) :
    shifted x (ix2 p k) = x (ix2 p k) - rowMax (fun j' => x (ix2 p j')) := by
  unfold shifted
  refine (subf_apply _ _ _).trans (congrArg (x (ix2 p k) - ·) ?_)
  exact (broadcastTo_a1_ab_apply _ _ p k).trans (rmaxCol_apply x p 0)

theorem esum_apply (p : Fin 1024) :
    esum x (ix1 p) = ∑ k : Fin 2, Ideal.exp (x (ix2 p k) - rowMax (fun j' => x (ix2 p j'))) := by
  unfold esum
  refine (Ideal.multiReduction_add_single _ 0x00000000#32 Gen.reduces_S1024x2_S1024 (.inl rfl) rfl (ix1 p)).trans ?_
  show ∑ k : Fin 2, Ideal.exp (shifted x (Gen.reduces_S1024x2_S1024.lift (ix1 p) k)) = _
  refine Finset.sum_congr rfl fun k _ => ?_
  rw [lift_eq, shifted_apply]

/-- The body's result at row `p`, column `j` is the row's log-softmax in the kernel's grouping. -/
theorem tail_apply (p : Fin 1024) (j : Fin 2) : tail x (ix2 p j) = rowK (fun j' => x (ix2 p j')) j := by
  unfold tail rowK
  refine (subf_apply _ _ _).trans (congrArg (x (ix2 p j) - ·) ?_)
  refine (broadcastTo_a1_ab_apply _ _ p j).trans ?_
  refine (addf_apply _ _ _).trans ?_
  refine congrArg₂ (· + ·) (rmaxCol_apply x p 0) ?_
  show Ideal.log (shapeCast S1024x1 (esum x) Gen.shapeCasts_S1024_S1024x1 (ix2 p (0 : Fin 1))) = _
  rw [shapeCast_a_a1_apply, esum_apply]

end Tail

/-! ## The payload -/

/-- The body's payload is the tail on the block's logits (the printed operations, regrouped under two names). -/
theorem pay_eq (v0 : Vec Ideal S1024x2048 .f32) (v3 : Vec Ideal S2048x2 .f32) (v7 : Vec Ideal S1x2 .f32) :
    Gen.k1_pay1 (F := Ideal) v0 v3 v7 = tail (logitsBlk v0 v3 v7) := rfl

/-- THE PAYLOAD AT AN INDEX: row `p`, column `j` of the block the body stores. -/
theorem pay_apply (v0 : Vec Ideal S1024x2048 .f32) (v3 : Vec Ideal S2048x2 .f32) (v7 : Vec Ideal S1x2 .f32)
    (p : Fin 1024) (j : Fin 2) :
    Gen.k1_pay1 (F := Ideal) v0 v3 v7 (ix2 p j)
      = rowK (fun j' => (∑ k : Fin 2048, v0 (ix2 p k) * v3 (ix2 k j')) + v7 (ix2 (0 : Fin 1) j')) j := by
  rw [pay_eq, tail_apply]
  exact congrArg (fun f => rowK f j) (funext fun j' => logitsBlk_apply v0 v3 v7 p j')

end Cert.Bridge.Cls

end
-- ==== Proof.ClsBlocks.lean ====
/-
  From the classifier's blocks to its array: what grid point t writes back is block t (rows 1024 t … 1024 t + 1023)
  of the one function `G` of the three arrays as the region finds them; the four blocks cover the rows; so the
  result array ends holding `G`.
-/
import proofs.«100887_j7249904795690_1_alg».proof.Proof.Gen.KernelIdeal.Frame
import proofs.«100887_j7249904795690_1_alg».proof.Proof.ClsSpec
import proofs.«100887_j7249904795690_1_alg».proof.Proof.ClsPay
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.Bridge.Cls

open Idealize.ShloMosaic.ValueIdx Cert.KernelIdeal

theorem hz : (![0, 0] : Fin 2 → Nat) = fun _ => 0 := funext fun a => by fin_cases a <;> rfl

/-- The body's block at an index, from what its three input blocks are of the arrays: the features' block is rows
    `1024 q …` of `A`, the weights and the bias whole. -/
theorem pay_block (A : S4096x2048.Idx → EReal) (B : S2048x2.Idx → EReal) (b : S1x2.Idx → EReal)
    (v0 : Vec Ideal S1024x2048 .f32) (v3 : Vec Ideal S2048x2 .f32) (v7 : Vec Ideal S1x2 .f32) (q : Nat)
    (h0 : ∀ (x : S1024x2048.Idx) (k : S4096x2048.Idx), (k 0).val = q * 1024 + (x 0).val → (k 1).val = (x 1).val → v0 x = A k)
    (h3 : v3 = B) (h7 : v7 = b) (y : S1024x2.Idx) (i : S4096x2.Idx)
    (hi0 : (i 0).val = q * 1024 + (y 0).val) (hi1 : (i 1).val = (y 1).val) :
    Gen.k1_pay1 (F := Ideal) v0 v3 v7 y = G A B b i := by
  obtain ⟨p, j, rfl⟩ : ∃ (p : Fin 1024) (j : Fin 2), y = ix2 p j := ⟨y 0, y 1, eq_ix2 y⟩
  obtain ⟨r, j', rfl⟩ : ∃ (r : Fin 4096) (j' : Fin 2), i = ix2 r j' := ⟨i 0, i 1, eq_ix2 i⟩
  have hr : r.val = q * 1024 + p.val := hi0
  obtain rfl : j' = j := Fin.ext hi1
  subst h3 h7
  rw [pay_apply, G_apply]
  refine congrArg (fun f => rowK f j') (funext fun j'' => congrArg (· + v7 (ix2 (0 : Fin 1) j''))
    (Finset.sum_congr rfl fun k _ => ?_))
  rw [h0 (ix2 p k) (ix2 r k) hr rfl]

/-- The printed index maps, decided over the grid: the features' and the result's block index is the point on the
    rows and zero on the columns; the weights' and the bias's are zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b)) (c : Dev nD)

/-- WHAT POINT `t` WRITES BACK is block `t` of `G` of the three arrays as the region finds them. -/
theorem flushed_eq (t : Fin cfg1.N) :
    (Gen.dat1 (F := Ideal) V c).flushed 3 t
      = ((cfg1.win 3).blk t).view.read (Elt Ideal) (G (V c main_v45) (V c main_v46) (V c main_v47)) := by
  show (cfg1.win 3).cut (grid1.coords t) ((Gen.dat1 V c).after 3 t) = _
  rw [Gen.after1_3]
  unfold Gen.out1_3
  rw [View.canon_unit_zero hz]
  simp only [View.ld_unit_zero (S := S1024x2048) hz, View.ld_unit_zero (S := S2048x2) hz, View.ld_unit_zero (S := S1x2) hz]
  obtain ⟨e00, e01, e10, e11, e20, e21, e30, e31⟩ := idx_facts t
  funext y
  show Gen.k1_pay1 (F := Ideal) (Gen.iblk1 V c 0 t) (Gen.iblk1 V c 1 t) (Gen.iblk1 V c 2 t) y
    = G (V c main_v45) (V c main_v46) (V c main_v47) (((cfg1.win 3).blk t).view.emb y)
  refine pay_block (V c main_v45) (V c main_v46) (V c main_v47) (Gen.iblk1 V c 0 t) (Gen.iblk1 V c 1 t) (Gen.iblk1 V c 2 t)
    t.val ?_ ?_ ?_ y (((cfg1.win 3).blk t).view.emb y) ?_ ?_
  · intro x k hk0 hk1
    show V c main_v45 (((cfg1.win 0).blk t).view.emb x) = V c main_v45 k
    refine congrArg _ (funext fun a => Fin.ext ?_)
    match a with
    | ⟨0, _⟩ => show win1_0.index t (0 : Fin 2) * 1024 + 1 * (x 0).val = (k 0).val; rw [e00, hk0]; omega
    | ⟨1, _⟩ => show win1_0.index t (1 : Fin 2) * 2048 + 1 * (x 1).val = (k 1).val; rw [e01, hk1]; omega
  · funext x
    show V c main_v46 (((cfg1.win 1).blk t).view.emb x) = V c main_v46 x
    refine congrArg _ (funext fun a => Fin.ext ?_)
    match a with
    | ⟨0, _⟩ => show win1_1.index t (0 : Fin 2) * 2048 + 1 * (x 0).val = (x 0).val; rw [e10]; omega
    | ⟨1, _⟩ => show win1_1.index t (1 : Fin 2) * 2 + 1 * (x 1).val = (x 1).val; rw [e11]; omega
  · funext x
    show V c main_v47 (((cfg1.win 2).blk t).view.emb x) = V c main_v47 x
    refine congrArg _ (funext fun a => Fin.ext ?_)
    match a with
    | ⟨0, _⟩ => show win1_2.index t (0 : Fin 2) * 1 + 1 * (x 0).val = (x 0).val; rw [e20]; omega
    | ⟨1, _⟩ => show win1_2.index t (1 : Fin 2) * 2 + 1 * (x 1).val = (x 1).val; rw [e21]; omega
  · show win1_3.index t (0 : Fin 2) * 1024 + 1 * (y 0).val = t.val * 1024 + (y 0).val; rw [e30]; omega
  · show win1_3.index t (1 : Fin 2) * 2 + 1 * (y 1).val = (y 1).val; rw [e31]; omega

/-- An index of the array is in point `t`'s block iff each coordinate is in the block's range on its axis. -/
theorem mem_blk (t : Fin cfg1.N) (i : S4096x2.Idx) :
    i ∈ ((cfg1.win 3).blk t).view.set ↔ ∀ a : Fin 2, win1_3.index t a * S1024x2.size a ≤ (i a).val
      ∧ (i a).val < win1_3.index t a * S1024x2.size a + S1024x2.size a := by
  show i ∈ ((View.whole main_v48).slice (win1_3.rect t)).set ↔ _
  rw [View.set_slice_whole, Rect.mem_set_unit]
  exact Iff.rfl

/-- Row `r` is in the block of point `r / 1024`. -/
theorem cover (i : S4096x2.Idx) : ∃ t : Fin cfg1.N, (cfg1.win 3).flush t = true ∧ i ∈ ((cfg1.win 3).blk t).view.set := by
  have hi0 : (i 0).val < 4096 := (i 0).isLt
  have hi1 : (i 1).val < 2 := (i 1).isLt
  have hN : cfg1.N = 4 := Gen.N_1
  let t : Fin cfg1.N := ⟨(i 0).val / 1024, by rw [hN]; omega⟩
  have htv : t.val = (i 0).val / 1024 := rfl
  obtain ⟨e00, e01, e10, e11, e20, e21, e30, e31⟩ := idx_facts t
  refine ⟨t, Gen.flush1_3 t, ?_⟩
  rw [mem_blk]
  intro a
  match a with
  | ⟨0, _⟩ =>
    show win1_3.index t (0 : Fin 2) * 1024 ≤ (i 0).val ∧ (i 0).val < win1_3.index t (0 : Fin 2) * 1024 + 1024
    rw [e30, htv]; omega
  | ⟨1, _⟩ =>
    show win1_3.index t (1 : Fin 2) * 2 ≤ (i 1).val ∧ (i 1).val < win1_3.index t (1 : Fin 2) * 2 + 2
    rw [e31]; omega

/-- THE ARRAY after the region: `G` of the three arrays as the region finds them. -/
theorem final : (Gen.dat1 (F := Ideal) V c).arrAt 3 cfg1.N = G (V c main_v45) (V c main_v46) (V c main_v47) :=
  (Gen.dat1 (F := Ideal) V c).arrAt_eq_of_cover 3 (G (V c main_v45) (V c main_v46) (V c main_v47))
    (fun t _ => flushed_eq V c t) (cover)

end

end Cert.Bridge.Cls

end
-- ==== Proof.ClsRef.lean ====
/-
  The reference's log_softmax tail read at an index: its logits are the same row-times-column sums plus the
  bias; on them it takes the row maximum (once more against -∞), subtracts it, and subtracts the log of the
  row's sum of exponentials, (x_j - m) - log Σ exp (x_k - m). On real logits that is the kernel's grouping, so
  the one function `G` of the three arrays is the reference's result.
-/
import proofs.«100887_j7249904795690_1_alg».proof.Proof.RefRead
import proofs.«100887_j7249904795690_1_alg».proof.Proof.RealArr
import proofs.«100887_j7249904795690_1_alg».proof.Proof.ClsSpec
import Idealize.ShloMosaic.Lib.ValueIdx
import Idealize.ShloMosaic.Lib.ValueLayout
import Idealize.ShloMosaic.Lib.Pipeline.Value
import Idealize.ShloMosaic.PureOps.Ideal.Laws

noncomputable section

namespace Cert.Bridge.Cls

open Idealize.ShloMosaic Idealize.ShloMosaic.ValueIdx Cert.ReferenceIdeal
open Cert.ReferenceIdeal.Read

section
variable (x0 : FVec Ideal S131072x768 .f32) (x1 : IVec S2x2097152 32) (x2 : FVec Ideal S768x64 .f32)
  (x3 : FVec Ideal S64 .f32) (x4 : FVec Ideal S2x2048 .f32) (x5 : FVec Ideal S2 .f32)

/-- The reference's logits at row `r`. -/
abbrev refRow (r : Fin 4096) : Fin 2 → EReal := fun j' => val_main_v50 (F := Ideal) x0 x1 x2 x3 x4 x5 (ix2 r j')

theorem red : S4096x2.Reduces [1] S4096 := by decide

theorem red_lift (r : Fin 4096) (k : Fin 2) : red.lift (ix1 r) k = ix2 r k :=
  funext fun a => Fin.ext (by
    match a with
    | ⟨0, _⟩ => rfl
    | ⟨1, _⟩ => rfl)

/-- The reference's row maximum: the fold from -∞ over the two columns, once more against -∞. -/
theorem ref_max (r : Fin 4096) :
    val_main_call1_v2 (F := Ideal) x0 x1 x2 x3 x4 x5 (ix1 r)
      = max (Ideal.ofBits .f32 0xFF800000#32) (rowMax (refRow x0 x1 x2 x3 x4 x5 r)) := by
  rw [val_main_call1_v2_apply, val_main_call1_v1_apply, val_main_call1_cst_0_apply]
  refine congrArg (max (Ideal.ofBits .f32 0xFF800000#32)) ?_
  unfold val_main_call1_v0
  refine (Host.reduce_eq_fold_single (α := Ideal .f32) FloatOps.maximumf (val_main_v50 (F := Ideal) x0 x1 x2 x3 x4 x5) _ _ red _ (ix1 r)).trans ?_
  show (Finset.univ : Finset (Fin 2)).fold max (Ideal.ofBits .f32 0xFF800000#32)
    (fun k => val_main_v50 (F := Ideal) x0 x1 x2 x3 x4 x5 (red.lift (ix1 r) k)) = _
  unfold rowMax
  exact congrArg (fun f => (Finset.univ : Finset (Fin 2)).fold max (Ideal.ofBits .f32 0xFF800000#32) f)
    (funext fun k => congrArg _ (red_lift r k))

/-- The reference's shifted logit. -/
theorem ref_shift (r : Fin 4096) (j : Fin 2) :
    val_main_call1_v5 (F := Ideal) x0 x1 x2 x3 x4 x5 (ix2 r j)
      = val_main_v50 (F := Ideal) x0 x1 x2 x3 x4 x5 (ix2 r j)
        - max (Ideal.ofBits .f32 0xFF800000#32) (rowMax (refRow x0 x1 x2 x3 x4 x5 r)) := by
  rw [val_main_call1_v5_apply, val_main_call1_v4_apply, val_main_call1_v3_apply]
  have e : idx_main_call1_v3 (idx_main_call1_v4 (ix2 r j)) = ix1 r :=
    funext fun a => Fin.ext (by match a with | ⟨0, _⟩ => rfl)
  rw [e, ref_max]
  rfl

/-- The reference's row sum of exponentials, from the zero pattern. -/
theorem ref_sum (r : Fin 4096) :
    val_main_call1_v7 (F := Ideal) x0 x1 x2 x3 x4 x5 (ix1 r)
      = Ideal.ofBits .f32 0x00000000#32 + ∑ k : Fin 2, Ideal.exp (val_main_v50 (F := Ideal) x0 x1 x2 x3 x4 x5 (ix2 r k)
        - max (Ideal.ofBits .f32 0xFF800000#32) (rowMax (refRow x0 x1 x2 x3 x4 x5 r))) := by
  rw [val_main_call1_v7_apply]
  refine congrArg₂ (· + ·) rfl (Finset.sum_congr rfl fun k _ => ?_)
  have e : idx_main_call1_v7 (ix1 r) k = ix2 r k :=
    funext fun a => Fin.ext (by match a with | ⟨0, _⟩ => rfl | ⟨1, _⟩ => rfl)
  rw [e, val_main_call1_v6_apply, ref_shift]
  exact Ideal.hostUnary_exp_def _

/-- THE REFERENCE'S RESULT at row `r`, column `j`: its grouping of the row's log-softmax on its logits. -/
theorem ref_tail (r : Fin 4096) (j : Fin 2) :
    val_main_v51 (F := Ideal) x0 x1 x2 x3 x4 x5 (ix2 r j) = rowR (refRow x0 x1 x2 x3 x4 x5 r) j := by
  rw [val_main_v51_apply, ref_shift, val_main_call1_v10_apply, val_main_call1_v9_apply, val_main_call1_v8_apply]
  have e : idx_main_call1_v8 (idx_main_call1_v10 (ix2 r j)) = ix1 r :=
    funext fun a => Fin.ext (by match a with | ⟨0, _⟩ => rfl)
  rw [e, ref_sum, Ideal.subf_def, Ideal.hostUnary_log_def]
  unfold rowR
  rfl

/-- The reference's logit is the row of features against the column of weights, plus the bias (the kernel reads the
    bias through a cast of the vector to one row). -/
theorem ref_logit (hsc : (⟨1, ![2]⟩ : Shape).ShapeCasts ⟨2, ![1, 2]⟩) (r : Fin 4096) (j : Fin 2) :
    val_main_v50 (F := Ideal) x0 x1 x2 x3 x4 x5 (ix2 r j)
      = logit (val_main_v45 (F := Ideal) x0 x1 x2 x3) (val_main_v46 (F := Ideal) x4) (shapeCast ⟨2, ![1, 2]⟩ x5 hsc) r j := by
  rw [val_main_v50_apply, val_main_v47_apply, val_main_v49_apply, val_main_v48_apply]
  unfold logit
  refine congrArg₂ (· + ·) (Finset.sum_congr rfl fun k _ => ?_) ?_
  · have el : lidx_main_v47 (ix2 r j) k = ix2 r k :=
      funext fun a => Fin.ext (by match a with | ⟨0, _⟩ => rfl | ⟨1, _⟩ => rfl)
    have er : ridx_main_v47 (ix2 r j) k = ix2 k j :=
      funext fun a => Fin.ext (by match a with | ⟨0, _⟩ => rfl | ⟨1, _⟩ => rfl)
    rw [el, er]
  · have e : idx_main_v48 (idx_main_v49 (ix2 r j)) = ix1 j :=
      funext fun a => Fin.ext (by match a with | ⟨0, _⟩ => rfl)
    rw [e]
    exact (shapeCast_a_1a_apply x5 hsc (0 : Fin 1) j).symm

/-- `G` OF THE REFERENCE'S THREE ARRAYS IS THE REFERENCE'S RESULT, when the features, the weights and the bias are
    real numbers: every logit is then real, and the two groupings agree. -/
theorem G_eq_ref (hsc : (⟨1, ![2]⟩ : Shape).ShapeCasts ⟨2, ![1, 2]⟩)
    (hfeat : Cert.Bridge.IsReal (val_main_v45 (F := Ideal) x0 x1 x2 x3)) (h4 : Cert.Bridge.IsReal x4)
    (h5 : Cert.Bridge.IsReal x5) :
    G (val_main_v45 (F := Ideal) x0 x1 x2 x3) (val_main_v46 (F := Ideal) x4) (shapeCast ⟨2, ![1, 2]⟩ x5 hsc)
      = val_main_v51 (F := Ideal) x0 x1 x2 x3 x4 x5 := by
  funext i
  obtain ⟨r, j, rfl⟩ : ∃ (r : Fin 4096) (j : Fin 2), i = ix2 r j := ⟨i 0, i 1, eq_ix2 i⟩
  have hrow : refRow x0 x1 x2 x3 x4 x5 r
      = fun j' => logit (val_main_v45 (F := Ideal) x0 x1 x2 x3) (val_main_v46 (F := Ideal) x4) (shapeCast ⟨2, ![1, 2]⟩ x5 hsc) r j' :=
    funext fun j' => ref_logit x0 x1 x2 x3 x4 x5 hsc r j'
  rw [ref_tail, hrow]
  show rowK _ j = _
  refine rowK_eq_rowR _ (fun j' => ?_) j
  refine real_dot_add _ _ _ (fun k => hfeat (ix2 r k)) (fun k => ?_) ?_
  · rw [val_main_v46_apply]; exact h4 _
  · rw [shapeCast_a_1a_apply x5 hsc (0 : Fin 1) j']; exact h5 _

end

end Cert.Bridge.Cls

end
-- ==== Proof.Cls.lean ====
/-
  THE CLASSIFIER REGION against the reference's log_softmax tail: when the region is entered with the features, the
  transposed weights and the bias row at the reference's stages, and those are arrays of real numbers, the region's
  result array is the reference's log_softmax of its logits. The kernel's array is the one function `G` of the three
  arrays (blocks to array); `G` of the reference's arrays is the reference's result (the two groupings of the
  log-softmax agree on real logits).
-/
import proofs.«100887_j7249904795690_1_alg».proof.Proof.ClsBlocks
import proofs.«100887_j7249904795690_1_alg».proof.Proof.ClsRef

noncomputable section

open Idealize.ShloMosaic Idealize.ShloMosaic.TcCoe Idealize.SL.Sem

namespace Cert.Bridge.Cls

open Cert.KernelIdeal Cert.Bridge

theorem region1_value
    (V : (c : Dev nD) → (b : Ref sig .tc) → Buf (Elt Ideal) ((c : Thread nD τ).loc b)) (c : Dev nD)
    (x0 : FVec Ideal S131072x768 .f32) (x1 : IVec S2x2097152 32) (x2 : FVec Ideal S768x64 .f32) (x3 : FVec Ideal S64 .f32) (x4 : FVec Ideal S2x2048 .f32) (x5 : FVec Ideal S2 .f32)
    (hA : V c main_v45 = Cert.ReferenceIdeal.Read.val_main_v45 (F := Ideal) x0 x1 x2 x3)
    (hB : V c main_v46 = Cert.ReferenceIdeal.Read.val_main_v46 (F := Ideal) x4)
    (hb : V c main_v47 = shapeCast S1x2 x5 Gen.shapeCasts_S2_S1x2)
    (hfeat : IsReal (Cert.ReferenceIdeal.Read.val_main_v45 (F := Ideal) x0 x1 x2 x3)) (h4 : IsReal x4) (h5 : IsReal x5) :
    (Gen.dat1 (F := Ideal) V c).arrAt 3 cfg1.N = Cert.ReferenceIdeal.Read.val_main_v51 (F := Ideal) x0 x1 x2 x3 x4 x5 := by
  rw [final V c, hA, hB, hb]
  exact G_eq_ref x0 x1 x2 x3 x4 x5 Gen.shapeCasts_S2_S1x2 hfeat h4 h5

end Cert.Bridge.Cls

end
-- ==== Proof.lean ====
/-
  A graph-convolution layer followed by a two-class classifier, as a Pallas program against its jnp reference, over the
  extended reals.

  Both programs compute, from node features x [131072, 768], an edge list, W_conv, b_conv, W_lin and b_lin:
    h    = x · W_conv                                         (the kernel: a matmul tiled over 64 blocks of 2048 rows)
    deg  = number of edges into each node, counting one self-loop per node  (a scatter-add of ones)
    out  = relu( Σ over edges s→d of h[s] / (√deg[s] · √deg[d]) , added at d, + b_conv )
    feat = out reshaped to [4096, 2048]
    z    = feat · W_linᵀ + b_lin                              (the kernel: inside the classifier region, 1024 rows at a time)
  and return the row-wise log-softmax of z over its two columns.  Everything between h and feat is the same host
  operations in both programs.  The two programs differ in three places: the kernel's two products are tiled and take
  bf16-truncated operands (truncation is the identity on extended reals, and a tiled product is the product); and the
  kernel writes the log-softmax as z − (m + log Σ exp(z − m)) where the reference writes (z − m) − log Σ exp(z − m),
  m the row maximum.  The two groupings agree when z is a real number and differ when an entry of z is +∞ (the first
  is then +∞, the second −∞), so the equivalence needs every logit to be real.  That holds for finite inputs because
  every node has its self-loop: deg ≥ 1, its inverse square root is a positive real, and every later stage is a finite
  sum or product of reals.

  The pieces: the kernel's run with its result buffer named (KRun), each region's result as one whole-array function
  (Region0 for the first product, Cls for the classifier), the host stretches read back to the reference's stages
  (KHost, KHost2), finiteness of the features from finiteness of the inputs (FeatReal, FeatRealPre), and the reference's
  run with its stages read at an index (RefRun, RefRead).
-/
import proofs.«100887_j7249904795690_1_alg».proof.Defs
import proofs.«100887_j7249904795690_1_alg».proof.Proof.Gen.Kernel
import proofs.«100887_j7249904795690_1_alg».proof.Proof.Gen.Kernel.Skeleton
import proofs.«100887_j7249904795690_1_alg».proof.Proof.Gen.Kernel.Launch
import proofs.«100887_j7249904795690_1_alg».proof.Proof.Gen.Kernel.Points
import proofs.«100887_j7249904795690_1_alg».proof.Proof.Gen.Kernel.Frame
import proofs.«100887_j7249904795690_1_alg».proof.Proof.Gen.KernelIdeal
import proofs.«100887_j7249904795690_1_alg».proof.Proof.Gen.KernelIdeal.Skeleton
import proofs.«100887_j7249904795690_1_alg».proof.Proof.Gen.KernelIdeal.Launch
import proofs.«100887_j7249904795690_1_alg».proof.Proof.Gen.KernelIdeal.Points
import proofs.«100887_j7249904795690_1_alg».proof.Proof.Gen.KernelIdeal.Frame
import proofs.«100887_j7249904795690_1_alg».proof.Proof.Gen.ReferenceIdeal
import proofs.«100887_j7249904795690_1_alg».proof.Proof.Gen.Pre_finite_inputs
import proofs.«100887_j7249904795690_1_alg».proof.Proof.RefRead
import proofs.«100887_j7249904795690_1_alg».proof.Proof.KRun
import proofs.«100887_j7249904795690_1_alg».proof.Proof.Region0
import proofs.«100887_j7249904795690_1_alg».proof.Proof.KHost2
import proofs.«100887_j7249904795690_1_alg».proof.Proof.FeatReal
import proofs.«100887_j7249904795690_1_alg».proof.Proof.FeatRealPre
import proofs.«100887_j7249904795690_1_alg».proof.Proof.Cls
import Idealize.ShloMosaic.Adequacy
import Idealize.ShloMosaic.Init

set_option maxRecDepth 16384

noncomputable section

namespace Cert.Proof

open Idealize.ShloMosaic Idealize.ShloMosaic.TcCoe Idealize.SL.Sem
open Cert.Bridge

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

section KernelValue

open Cert.KernelIdeal Cert.KernelIdeal.Gen

/-- On finite inputs the kernel's result buffer ends at the reference's log-softmax stage of the arguments: the first
    region leaves the reference's product, the host stretch carries it to the reference's features, which are real, and
    the classifier region's array is then the reference's result. -/
theorem kernel_value (m : (ℓ : Loc nD τ sig) → Buf (Elt Ideal) ℓ) (ρ : Dev nD → PrngReg) (hpre : Cert.Pre_KernelIdeal m) (c : Dev nD) :
    W6 m ρ c (Proc.devRef .tc main_v48)
      = Cert.ReferenceIdeal.Read.val_main_v51 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  obtain ⟨h0, h2, h3, h4, h5⟩ := real_of_pre _ _ _ _ _ _ (hpre c)
  have hh : W2 m ρ c (Proc.devRef .tc main_v27)
      = Cert.ReferenceIdeal.Read.val_main_v27 (F := Ideal) (m ((c : Thread nD τ).loc main_arg0)) (m ((c : Thread nD τ).loc main_arg2)) := by
    rw [Host.exit0, Feat.region0_value (V1 m ρ) c, Host.entry0_arg0, Host.entry0_arg2]
  rw [Host.exit1]
  exact Cls.region1_value (V5 m ρ) c _ _ _ _ _ _ (Host.entry1_feat m ρ c hh) (Host.entry1_wt m ρ c) (Host.entry1_bias m ρ c)
    (feat_real _ _ _ _ h0 h2 h3) h4 h5

end KernelValue

/-- From memories that agree on the arguments both idealized programs end with the same result array: the reference's
    log-softmax stage of the (shared) arguments. -/
theorem algebraic : Cert.algebraic_KernelIdeal_ReferenceIdeal := by
  intro m ρ m' ρ' hpre hagree
  refine ⟨fun c => Cert.ReferenceIdeal.Read.val_main_v51 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.RunAll.run_all (F := Ideal) m ρ)
    exact ⟨(h c _ (Cert.KernelIdeal.Gen.mem_uc Cert.KernelIdeal.main_v48 (by decide))).trans (kernel_value m ρ hpre c),
      (h c _ (Cert.KernelIdeal.Gen.mem_uc Cert.KernelIdeal.main_arg0 (by decide))).trans (Cert.KernelIdeal.Gen.W6_main_arg0 m ρ c),
      (h c _ (Cert.KernelIdeal.Gen.mem_uc Cert.KernelIdeal.main_arg1 (by decide))).trans (Cert.KernelIdeal.Gen.W6_main_arg1 m ρ c),
      (h c _ (Cert.KernelIdeal.Gen.mem_uc Cert.KernelIdeal.main_arg2 (by decide))).trans (Cert.KernelIdeal.Gen.W6_main_arg2 m ρ c),
      (h c _ (Cert.KernelIdeal.Gen.mem_uc Cert.KernelIdeal.main_arg3 (by decide))).trans (Cert.KernelIdeal.Gen.W6_main_arg3 m ρ c),
      (h c _ (Cert.KernelIdeal.Gen.mem_uc Cert.KernelIdeal.main_arg4 (by decide))).trans (Cert.KernelIdeal.Gen.W6_main_arg4 m ρ c),
      (h c _ (Cert.KernelIdeal.Gen.mem_uc Cert.KernelIdeal.main_arg5 (by decide))).trans (Cert.KernelIdeal.Gen.W6_main_arg5 m ρ c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v51_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
